-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x9 : Shape := ⟨2, ![256, 9]⟩
abbrev S9 : Shape := ⟨1, ![9]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x9 : S_.BroadcastsInDim S256x9 (![] : Fin 0 → Fin S256x9.rank)
  reducesTo_S256x9_S_d0_1 : S256x9.ReducesTo [0, 1] S_
  bcast_S_S9 : S_.BroadcastsInDim S9 (![] : Fin 0 → Fin S9.rank)
  reducesTo_S9_S_d0 : S9.ReducesTo [0] S_

variable [Facts]

def fn_part3 {F : FTy → Type} [FloatOps F] (main_arg12 : FVec F S9 .f32) (main_v48 : IVec S_ 1) (main_v49 : FVec F S256x9 .f32) (main_v50 : FVec F S256x9 .f32) : IVec S_ 1 :=
  let main_v51 : IVec S256x9 1 := cmpf .olt main_v49 main_v50
  let main_c_19 : IVec S_ 1 := constantI S_ 1 1#1
  let main_v52 : IVec S_ 1 := (fun x v => Host.reduce IntOp.andi x v reducesTo_S256x9_S_d0_1 h_S_) main_v51 main_c_19
  let main_v53 : IVec S_ 1 := andi main_v48 main_v52
  let main_v54 : FVec F S9 .f32 := Host.absf main_arg12
  let main_cst_20 : FVec F S_ .f32 := constant S_ .f32 0x7F800000#32
  let main_v55 : FVec F S9 .f32 := broadcastInDim S9 ![] bcast_S_S9 main_cst_20
  let main_v56 : IVec S9 1 := cmpf .olt main_v54 main_v55
  let main_c_21 : IVec S_ 1 := constantI S_ 1 1#1
  let main_v57 : IVec S_ 1 := (fun x v => Host.reduce IntOp.andi x v reducesTo_S9_S_d0 h_S_) main_v56 main_c_21
  let main_v58 : IVec S_ 1 := andi main_v53 main_v57
  main_v58

def fn_part2 {F : FTy → Type} [FloatOps F] (main_arg8 : FVec F S128x256 .f32) (main_arg9 : FVec F S256 .f32) (main_arg10 : FVec F S128x256 .f32) (main_arg11 : FVec F S256x9 .f32) (main_arg12 : FVec F S9 .f32) (main_v33 : IVec S_ 1) : IVec S_ 1 :=
  let main_v34 : FVec F S128x256 .f32 := Host.absf main_arg8
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S128x256 .f32 := Host.absf main_arg10
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S256x9 .f32 := Host.absf main_arg11
  let main_cst_18 : FVec F S_ .f32 := constant S_ .f32 0x7F800000#32
  let main_v50 : FVec F S256x9 .f32 := broadcastInDim S256x9 ![] bcast_S_S256x9 main_cst_18
  fn_part3 (F := F) main_arg12 main_v48 main_v49 main_v50

def fn_part1 {F : FTy → Type} [FloatOps F] (main_arg5 : FVec F S128x128 .f32) (main_arg6 : FVec F S128 .f32) (main_arg7 : FVec F S128x128 .f32) (main_arg8 : FVec F S128x256 .f32) (main_arg9 : FVec F S256 .f32) (main_arg10 : FVec F S128x256 .f32) (main_arg11 : FVec F S256x9 .f32) (main_arg12 : FVec F S9 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x64 .f32) (main_arg1 : IVec S2x1600000 32) (main_arg2 : FVec F S64x128 .f32) (main_arg3 : FVec F S128 .f32) (main_arg4 : FVec F S64x128 .f32) (main_arg5 : FVec F S128x128 .f32) (main_arg6 : FVec F S128 .f32) (main_arg7 : FVec F S128x128 .f32) (main_arg8 : FVec F S128x256 .f32) (main_arg9 : FVec F S256 .f32) (main_arg10 : FVec F S128x256 .f32) (main_arg11 : FVec F S256x9 .f32) (main_arg12 : FVec F S9 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_arg10 main_arg11 main_arg12 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x9 : Shape := ⟨2, ![256, 9]⟩
abbrev S9 : Shape := ⟨1, ![9]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x128 : Shape := ⟨2, ![1, 128]⟩
abbrev S100000x128 : Shape := ⟨2, ![100000, 128]⟩
abbrev S2000x64 : Shape := ⟨2, ![2000, 64]⟩
abbrev S2000x128 : Shape := ⟨2, ![2000, 128]⟩
abbrev S1600000x128 : Shape := ⟨2, ![1600000, 128]⟩
abbrev S1x256 : Shape := ⟨2, ![1, 256]⟩
abbrev S100000x256 : Shape := ⟨2, ![100000, 256]⟩
abbrev S2000x256 : Shape := ⟨2, ![2000, 256]⟩
abbrev S1x9 : Shape := ⟨2, ![1, 9]⟩
abbrev S100000x9 : Shape := ⟨2, ![100000, 9]⟩
abbrev S2000x9 : Shape := ⟨2, ![2000, 9]⟩

abbrev nBuf : Space → Nat
  | .hbm => 83
  | .vmem => 33
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x256, .f32⟩
  | .hbm, ⟨9, _⟩ => ⟨S256, .f32⟩
  | .hbm, ⟨10, _⟩ => ⟨S128x256, .f32⟩
  | .hbm, ⟨11, _⟩ => ⟨S256x9, .f32⟩
  | .hbm, ⟨12, _⟩ => ⟨S9, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S1x128, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x128, .f32⟩
  | .hbm, ⟨73, _⟩ => ⟨S_, .f32⟩
  | .hbm, ⟨74, _⟩ => ⟨S100000x128, .f32⟩
  | .hbm, ⟨75, _⟩ => ⟨S1600000x1, .i32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S1x256, .f32⟩
  | .hbm, ⟨80, _⟩ => ⟨S100000x256, .f32⟩
  | .hbm, ⟨81, _⟩ => ⟨S1x9, .f32⟩
  | .hbm, ⟨82, _⟩ => ⟨S100000x9, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x128, .f32⟩
  | .local _ .vmem, ⟨5, _⟩ => ⟨S1x128, .f32⟩
  | .local _ .vmem, ⟨6, _⟩ => ⟨S64x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x256, .f32⟩
  | .local _ .vmem, ⟨23, _⟩ => ⟨S1x256, .f32⟩
  | .local _ .vmem, ⟨24, _⟩ => ⟨S128x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S256x9, .f32⟩
  | .local _ .vmem, ⟨30, _⟩ => ⟨S1x9, .f32⟩
  | .local _ .vmem, ⟨31, _⟩ => ⟨S2000x9, .f32⟩
  | .local _ .vmem, ⟨32, _⟩ => ⟨S2000x9, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_8 : Ref sig .tc := ⟨.hbm, 64, rfl⟩
abbrev main_v41 : Ref sig .tc := ⟨.hbm, 65, rfl⟩
abbrev main_v42 : Ref sig .tc := ⟨.hbm, 66, rfl⟩
abbrev main_c_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x9 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x9 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x9 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S128_S1x128 : S128.ShapeCasts S1x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S256_S1x256 : S256.ShapeCasts S1x256
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  shapeCasts_S9_S1x9 : S9.ShapeCasts S1x9
  shapeCasts_S2000x256_S2000x256 : S2000x256.ShapeCasts S2000x256
  inb_S256x9_S256x9_0_0 : ∀ a, (![0, 0] : Fin 2 → Nat) a + S256x9.size a ≤ S256x9.size a
  h_S256x9 : 0 < S256x9.numel
  inb_S1x9_S1x9_0_0 : ∀ a, (![0, 0] : Fin 2 → Nat) a + S1x9.size a ≤ S1x9.size a
  h_S1x9 : 0 < S1x9.numel
  shapeCasts_S1x9_S1x9 : S1x9.ShapeCasts S1x9
  broadcasts_S1x9_S2000x9 : S1x9.Broadcasts S2000x9
  inb_S2000x9_S2000x9_0_0 : ∀ a, (![0, 0] : Fin 2 → Nat) a + S2000x9.size a ≤ S2000x9.size a
  h_S2000x9 : 0 < S2000x9.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x128_S2000x128_1_0_0_1_n_n_wf : DotDims.WF S2000x64 S64x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x256_S2000x256_1_0_0_1_n_n_wf : DotDims.WF S2000x128 S128x256 S2000x256 [1] [0] [0] [1] [] []
  dot_S2000x256_S256x9_S2000x9_1_0_0_1_n_n_wf : DotDims.WF S2000x256 S256x9 S2000x9 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .f32 = 32 ∨ (Rect.block (s := S128x256) S128x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x256.size a ≤ S128x256.size a
  hwx2_4 : ∀ i : grid2.Coords, EltTy.bits .f32 = 32 ∨ (Rect.block (s := S128x256) S128x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S100000x256.size a
  hwx2_5 : ∀ i : grid2.Coords, EltTy.bits .f32 = 32 ∨ (Rect.block (s := S100000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S100000x256.size a
  hwx3_0 : ∀ i : grid3.Coords, EltTy.bits .f32 = 32 ∨ (Rect.block (s := S100000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x9.size a ≤ S256x9.size a
  hwx3_1 : ∀ i : grid3.Coords, EltTy.bits .f32 = 32 ∨ (Rect.block (s := S256x9) S256x9.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x9.size a ≤ S1x9.size a
  hwx3_2 : ∀ i : grid3.Coords, EltTy.bits .f32 = 32 ∨ (Rect.block (s := S1x9) S1x9.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x9.size a ≤ S100000x9.size a
  hwx3_3 : ∀ i : grid3.Coords, EltTy.bits .f32 = 32 ∨ (Rect.block (s := S100000x9) S2000x9.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x9_S2000x9_1_0_0_1_n_n : DotDims S2000x256 S256x9 S2000x9 where
  lhsContracting := [1]
  rhsContracting := [0]
  lhsNonContracting := [0]
  rhsNonContracting := [1]
  lhsBatch := []
  rhsBatch := []
  wf := dot_S2000x256_S256x9_S2000x9_1_0_0_1_n_n_wf

abbrev win0_0 : Pipeline.Window sig grid0 :=
  Pipeline.Window.ofSpec (Memref.whole main_v24) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v54) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S256x9.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1x9.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S2000x9.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x9 : Shape := ⟨2, ![256, 9]⟩
abbrev S9 : Shape := ⟨1, ![9]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S100000x256 : Shape := ⟨2, ![100000, 256]⟩
abbrev S1x256 : Shape := ⟨2, ![1, 256]⟩
abbrev S100000x9 : Shape := ⟨2, ![100000, 9]⟩
abbrev S1x9 : Shape := ⟨2, ![1, 9]⟩

abbrev nBuf : Space → Nat
  | .hbm => 123
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x256, .f32⟩
  | .hbm, ⟨9, _⟩ => ⟨S256, .f32⟩
  | .hbm, ⟨10, _⟩ => ⟨S128x256, .f32⟩
  | .hbm, ⟨11, _⟩ => ⟨S256x9, .f32⟩
  | .hbm, ⟨12, _⟩ => ⟨S9, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .f32⟩
  | .hbm, ⟨26, _⟩ => ⟨S_, .f32⟩
  | .hbm, ⟨27, _⟩ => ⟨S100000x64, .f32⟩
  | .hbm, ⟨28, _⟩ => ⟨S1600000x1, .i32⟩
  | .hbm, ⟨29, _⟩ => ⟨S100000x64, .f32⟩
  | .hbm, ⟨30, _⟩ => ⟨S_, .f32⟩
  | .hbm, ⟨31, _⟩ => ⟨S1600000, .f32⟩
  | .hbm, ⟨32, _⟩ => ⟨S_, .f32⟩
  | .hbm, ⟨33, _⟩ => ⟨S100000, .f32⟩
  | .hbm, ⟨34, _⟩ => ⟨S1600000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x64, .f32⟩
  | .hbm, ⟨41, _⟩ => ⟨S100000x64, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S_, .f32⟩
  | .hbm, ⟨65, _⟩ => ⟨S1600000, .f32⟩
  | .hbm, ⟨66, _⟩ => ⟨S_, .f32⟩
  | .hbm, ⟨67, _⟩ => ⟨S100000, .f32⟩
  | .hbm, ⟨68, _⟩ => ⟨S1600000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000x128, .f32⟩
  | .hbm, ⟨84, _⟩ => ⟨S100000x128, .f32⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S1600000x128, .f32⟩
  | .hbm, ⟨94, _⟩ => ⟨S_, .f32⟩
  | .hbm, ⟨95, _⟩ => ⟨S100000x128, .f32⟩
  | .hbm, ⟨96, _⟩ => ⟨S1600000x1, .i32⟩
  | .hbm, ⟨97, _⟩ => ⟨S100000x128, .f32⟩
  | .hbm, ⟨98, _⟩ => ⟨S_, .f32⟩
  | .hbm, ⟨99, _⟩ => ⟨S1600000, .f32⟩
  | .hbm, ⟨100, _⟩ => ⟨S_, .f32⟩
  | .hbm, ⟨101, _⟩ => ⟨S100000, .f32⟩
  | .hbm, ⟨102, _⟩ => ⟨S1600000x1, .i32⟩
  | .hbm, ⟨103, _⟩ => ⟨S100000, .f32⟩
  | .hbm, ⟨104, _⟩ => ⟨S_, .f32⟩
  | .hbm, ⟨105, _⟩ => ⟨S100000, .f32⟩
  | .hbm, ⟨106, _⟩ => ⟨S100000, .f32⟩
  | .hbm, ⟨107, _⟩ => ⟨S100000x1, .f32⟩
  | .hbm, ⟨108, _⟩ => ⟨S100000x128, .f32⟩
  | .hbm, ⟨109, _⟩ => ⟨S100000x128, .f32⟩
  | .hbm, ⟨110, _⟩ => ⟨S100000x256, .f32⟩
  | .hbm, ⟨111, _⟩ => ⟨S1x256, .f32⟩
  | .hbm, ⟨112, _⟩ => ⟨S100000x256, .f32⟩
  | .hbm, ⟨113, _⟩ => ⟨S100000x256, .f32⟩
  | .hbm, ⟨114, _⟩ => ⟨S100000x256, .f32⟩
  | .hbm, ⟨115, _⟩ => ⟨S100000x256, .f32⟩
  | .hbm, ⟨116, _⟩ => ⟨S_, .f32⟩
  | .hbm, ⟨117, _⟩ => ⟨S100000x256, .f32⟩
  | .hbm, ⟨118, _⟩ => ⟨S100000x256, .f32⟩
  | .hbm, ⟨119, _⟩ => ⟨S100000x9, .f32⟩
  | .hbm, ⟨120, _⟩ => ⟨S1x9, .f32⟩
  | .hbm, ⟨121, _⟩ => ⟨S100000x9, .f32⟩
  | .hbm, ⟨122, _⟩ => ⟨S100000x9, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call1_cst : Ref sig .tc := ⟨.hbm, 82, rfl⟩
abbrev main_call1_v0 : Ref sig .tc := ⟨.hbm, 83, rfl⟩
abbrev main_v55 : Ref sig .tc := ⟨.hbm, 84, rfl⟩
abbrev main_c_10 : Ref sig .tc := ⟨.hbm, 85, rfl⟩
abbrev main_v56 : Ref sig .tc := ⟨.hbm, 86, rfl⟩
abbrev main_v57 : Ref sig .tc := ⟨.hbm, 87, rfl⟩
abbrev main_c_11 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_12 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_13 : Ref sig .tc := ⟨.hbm, 98, rfl⟩
abbrev main_v66 : Ref sig .tc := ⟨.hbm, 99, rfl⟩
abbrev main_cst_14 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_15 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_call2_cst : Ref sig .tc := ⟨.hbm, 116, rfl⟩
abbrev main_call2_v0 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S9_S1x9_1 : S9.BroadcastsInDim S1x9 (![1] : Fin 1 → Fin S1x9.rank)
  bcast_S1x9_S100000x9_0_1 : S1x9.BroadcastsInDim S100000x9 (![0, 1] : Fin 2 → Fin S100000x9.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x256_S100000x256_1_0_0_1_n_n_wf : DotDims.WF S100000x128 S128x256 S100000x256 [1] [0] [0] [1] [] []
  dot_S100000x256_S256x9_S100000x9_1_0_0_1_n_n_wf : DotDims.WF S100000x256 S256x9 S100000x9 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x9_S100000x9_1_0_0_1_n_n : DotDims S100000x256 S256x9 S100000x9 where
  lhsContracting := [1]
  rhsContracting := [0]
  lhsNonContracting := [0]
  rhsNonContracting := [1]
  lhsBatch := []
  rhsBatch := []
  wf := dot_S100000x256_S256x9_S100000x9_1_0_0_1_n_n_wf

class Facts : Prop extends Facts₀ where

variable [Facts]
-- ==== Proof.KernelRun.lean ====
/-
  The program's run with its result named.

  The program is four kernel launches among stretches of host operations. Its buffers' contents at each boundary form a
  chain: each stretch applies its operations to the contents before it, each launch replaces its arrays by what its grid
  points wrote back. Every weakly fair execution terminates with every buffer at the end of that chain; read at the
  program's result this names the result array, and read at an argument it gives the argument back unchanged.
-/
import proofs.«162173_j90580860273246_1_alg».proof.Proof.Gen.KernelIdeal.Frame

set_option maxRecDepth 16384

noncomputable section

namespace Cert.KernelIdeal.Chain

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result array at the end of the chain of
    boundary contents and every argument array as launched. -/
theorem run_result : θ_run defs (onTc (τ := τ) (main (F := F))) ⟨m, fun _ => 0, ρ⟩ (fun r => ∀ c : Dev nD,
      r.2.mem ((c.tc : Thread nD τ).loc main_v56) = W8 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v56 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.KernelIdeal.Chain

end
-- ==== Proof.HostK.lean ====
/-
  What the host operations between the launches compute, and what each launch therefore finds in its operands.

  The edge array's two rows are the sources and the destinations. A negative source counts from the end. The sum over
  each node's in-neighbours (`aggr`) gathers the source rows of a feature matrix and scatter-adds them at the
  destinations; the in-degree (`deg`) scatter-adds ones at the destinations; the column of reciprocals is
  `1 / max deg 1`, and the neighbourhood mean is the sum scaled by that column repeated along each row.

  The buffers' contents at each boundary of the program are a chain (each stretch of host operations applied to the
  contents before it, each launch replacing its arrays). Read at a launch's operands the chain gives: the mean of the
  previous layer's output, that output, and the argument arrays.
-/
import proofs.«162173_j90580860273246_1_alg».proof.Proof.Gen.KernelIdeal.Frame
import Idealize.ShloMosaic.Lib.StableHlo.Run
import Idealize.ShloMosaic.PureOps.Ideal
import Idealize.ShloMosaic.Lib.ValueIdx

set_option maxRecDepth 16384

noncomputable section

namespace Cert.KernelIdeal.HostK

open Cert.KernelIdeal Cert.KernelIdeal.Gen Idealize.ShloMosaic Idealize.ShloMosaic.TcCoe Idealize.ShloMosaic.StableHlo
open Idealize.SL.Sem

/-! ## The host stages as functions -/

/-- Row `0` of the edge array: the sources. -/
def srcOf (E : IVec S2x1600000 32) : IVec S1600000 32 :=
  shapeCast S1600000 (extractStridedSlice S1x1600000 ![0, 0] E slices_S2x1600000_S1x1600000_0_0) shapeCasts_S1x1600000_S1600000

/-- Row `1` of the edge array: the destinations. -/
def dstOf (E : IVec S2x1600000 32) : IVec S1600000 32 :=
  shapeCast S1600000 (extractStridedSlice S1x1600000 ![1, 0] E slices_S2x1600000_S1x1600000_1_0) shapeCasts_S1x1600000_S1600000

/-- The sources as a column of row numbers, a negative one counted from the end. -/
def srcCol (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The destinations as a column. -/
def dstCol (dst : IVec S1600000 32) : IVec S1600000x1 32 :=
  broadcastInDim S1600000x1 ![0] bcast_S1600000_S1600000x1_0 dst

/-- The vector of ones. -/
def ones : FVec Ideal S100000 .f32 := broadcastInDim S100000 ![] bcast_S_S100000 (constant (F := Ideal) S_ .f32 0x3F800000#32)

/-- The in-degrees. -/
def deg (dst : IVec S1600000 32) : FVec Ideal S100000 .f32 :=
  Host.scatterAdd (F := Ideal) scatter_S100000_S1600000x1_S1600000_n_0_0_1
    (broadcastInDim S100000 ![] bcast_S_S100000 (constant (F := Ideal) S_ .f32 0x00000000#32)) (dstCol dst)
    (broadcastInDim S1600000 ![] bcast_S_S1600000 (constant (F := Ideal) S_ .f32 0x3F800000#32))

/-- The column of reciprocals `1 / max deg 1`. -/
def recipCol (dst : IVec S1600000 32) : FVec Ideal S100000x1 .f32 :=
  shapeCast S100000x1 (Host.divf (F := Ideal) ones (maximumf (deg dst) ones)) shapeCasts_S100000_S100000x1

/-- The sum over in-neighbours of 64-wide rows. -/
def aggr64 (h : FVec Ideal S100000x64 .f32) (src dst : IVec S1600000 32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32)) (dstCol dst)
    (Host.gather gather_S100000x64_S1600000x1_S1600000x64_1_0_n_n_0_1_164 h (srcCol src))

/-- The sum over in-neighbours of 128-wide rows. -/
def aggr128 (h : FVec Ideal S100000x128 .f32) (src dst : IVec S1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32)) (dstCol dst)
    (Host.gather gather_S100000x128_S1600000x1_S1600000x128_1_0_n_n_0_1_1128 h (srcCol src))

/-- The neighbourhood mean of 64-wide rows: the sum scaled by the column of reciprocals. -/
def mean64 (h : FVec Ideal S100000x64 .f32) (src dst : IVec S1600000 32) (rc : FVec Ideal S100000x1 .f32) : FVec Ideal S100000x64 .f32 :=
  mulf (aggr64 h src dst) (broadcastInDim S100000x64 ![0, 1] bcast_S100000x1_S100000x64_0_1 rc)

/-- The neighbourhood mean of 128-wide rows. -/
def mean128 (h : FVec Ideal S100000x128 .f32) (src dst : IVec S1600000 32) (rc : FVec Ideal S100000x1 .f32) : FVec Ideal S100000x128 .f32 :=
  mulf (aggr128 h src dst) (broadcastInDim S100000x128 ![0, 1] bcast_S100000x1_S100000x128_0_1 rc)

/-! ## The chain of boundary contents, read at the launches' operands -/

variable (m : (ℓ : Loc nD τ sig) → Buf (Elt Ideal) ℓ) (ρ : Dev nD → PrngReg) (c : Dev nD)

/-- The edge array as launched. -/
abbrev edges : IVec S2x1600000 32 := m ((c : Thread nD τ).loc main_arg1)

/-- The stretch of host operations `ops` writes none of its buffers at the reference in the goal: the goal
    `after ops V b = V b` for a reference `b` no operation of `ops` writes. -/
macro "not_written" ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

/-! ### Before the first launch -/

theorem W1_src : (W1 m ρ c (Proc.devRef .tc main_v1) : IVec S1600000 32) = srcOf (edges m c) := by
  show StableHlo.after hostOps0 (W0 m ρ c) (Proc.devRef .tc main_v1) = _
  after_results
  rfl

theorem W1_dst : (W1 m ρ c (Proc.devRef .tc main_v3) : IVec S1600000 32) = dstOf (edges m c) := by
  show StableHlo.after hostOps0 (W0 m ρ c) (Proc.devRef .tc main_v3) = _
  after_results
  rfl

theorem W1_recip : (W1 m ρ c (Proc.devRef .tc main_v12) : FVec Ideal S100000x1 .f32) = recipCol (dstOf (edges m c)) := by
  show StableHlo.after hostOps0 (W0 m ρ c) (Proc.devRef .tc main_v12) = _
  after_results
  rfl

/-- The first launch's mean operand. -/
theorem V1_mean : (V1 m ρ c main_v24 : FVec Ideal S100000x64 .f32)
    = mean64 (m ((c : Thread nD τ).loc main_arg0)) (srcOf (edges m c)) (dstOf (edges m c)) (recipCol (dstOf (edges m c))) := by
  show StableHlo.after hostOps0 (W0 m ρ c) (Proc.devRef .tc main_v24) = _
  after_results_simp
  rfl

/-- The first launch's bias operand: the bias vector as one row. -/
theorem V1_bias : (V1 m ρ c main_v25 : FVec Ideal S1x128 .f32)
    = shapeCast S1x128 (m ((c : Thread nD τ).loc main_arg3) : FVec Ideal S128 .f32) shapeCasts_S128_S1x128 := by
  show StableHlo.after hostOps0 (W0 m ρ c) (Proc.devRef .tc main_v25) = _
  after_results_simp
  rfl

theorem V1_arg0 : V1 m ρ c main_arg0 = m ((c : Thread nD τ).loc main_arg0) :=
  (by not_written hostOps0 : W1 m ρ c (Proc.devRef .tc main_arg0) = W0 m ρ c (Proc.devRef .tc main_arg0))

theorem V1_arg2 : V1 m ρ c main_arg2 = m ((c : Thread nD τ).loc main_arg2) :=
  (by not_written hostOps0 : W1 m ρ c (Proc.devRef .tc main_arg2) = W0 m ρ c (Proc.devRef .tc main_arg2))

theorem V1_arg4 : V1 m ρ c main_arg4 = m ((c : Thread nD τ).loc main_arg4) :=
  (by not_written hostOps0 : W1 m ρ c (Proc.devRef .tc main_arg4) = W0 m ρ c (Proc.devRef .tc main_arg4))

/-! ### After the first launch -/

theorem W2_src : (W2 m ρ c (Proc.devRef .tc main_v1) : IVec S1600000 32) = srcOf (edges m c) :=
  ((W2_of_ne m ρ c main_v1 (by decide)).trans (W1_src m ρ c))

theorem W2_dst : (W2 m ρ c (Proc.devRef .tc main_v3) : IVec S1600000 32) = dstOf (edges m c) :=
  ((W2_of_ne m ρ c main_v3 (by decide)).trans (W1_dst m ρ c))

theorem W2_recip : (W2 m ρ c (Proc.devRef .tc main_v12) : FVec Ideal S100000x1 .f32) = recipCol (dstOf (edges m c)) :=
  ((W2_of_ne m ρ c main_v12 (by decide)).trans (W1_recip m ρ c))

/-- The second launch's mean operand: the mean of what the first launch left. -/
theorem V3_mean : (V3 m ρ c main_v38 : FVec Ideal S100000x128 .f32)
    = mean128 (W2 m ρ c (Proc.devRef .tc main_v26)) (srcOf (edges m c)) (dstOf (edges m c)) (recipCol (dstOf (edges m c))) := by
  rw [← W2_recip m ρ c, ← W2_src m ρ c, ← W2_dst m ρ c]
  show StableHlo.after hostOps1 (W2 m ρ c) (Proc.devRef .tc main_v38) = _
  after_results_simp
  rfl

theorem V3_h : V3 m ρ c main_v26 = W2 m ρ c (Proc.devRef .tc main_v26) := by
  show StableHlo.after hostOps1 (W2 m ρ c) (Proc.devRef .tc main_v26) = _
  not_written hostOps1

theorem V3_bias : (V3 m ρ c main_v39 : FVec Ideal S1x128 .f32)
    = shapeCast S1x128 (m ((c : Thread nD τ).loc main_arg6) : FVec Ideal S128 .f32) shapeCasts_S128_S1x128 := by
  rw [← (((W2_of_ne m ρ c main_arg6 (by decide)).trans (by not_written hostOps0 : W1 m ρ c (Proc.devRef .tc main_arg6) = W0 m ρ c (Proc.devRef .tc main_arg6))) : W2 m ρ c (Proc.devRef .tc main_arg6) = m ((c : Thread nD τ).loc main_arg6))]
  show StableHlo.after hostOps1 (W2 m ρ c) (Proc.devRef .tc main_v39) = _
  after_results_simp
  rfl

theorem V3_arg5 : V3 m ρ c main_arg5 = m ((c : Thread nD τ).loc main_arg5) :=
  ((by not_written hostOps1 : W3 m ρ c (Proc.devRef .tc main_arg5) = W2 m ρ c (Proc.devRef .tc main_arg5)).trans ((W2_of_ne m ρ c main_arg5 (by decide)).trans (by not_written hostOps0 : W1 m ρ c (Proc.devRef .tc main_arg5) = W0 m ρ c (Proc.devRef .tc main_arg5))))

theorem V3_arg7 : V3 m ρ c main_arg7 = m ((c : Thread nD τ).loc main_arg7) :=
  ((by not_written hostOps1 : W3 m ρ c (Proc.devRef .tc main_arg7) = W2 m ρ c (Proc.devRef .tc main_arg7)).trans ((W2_of_ne m ρ c main_arg7 (by decide)).trans (by not_written hostOps0 : W1 m ρ c (Proc.devRef .tc main_arg7) = W0 m ρ c (Proc.devRef .tc main_arg7))))

/-! ### After the second launch -/

theorem W4_src : (W4 m ρ c (Proc.devRef .tc main_v1) : IVec S1600000 32) = srcOf (edges m c) :=
  ((W4_of_ne m ρ c main_v1 (by decide)).trans ((by not_written hostOps1 : W3 m ρ c (Proc.devRef .tc main_v1) = W2 m ρ c (Proc.devRef .tc main_v1)).trans (W2_src m ρ c)))

theorem W4_dst : (W4 m ρ c (Proc.devRef .tc main_v3) : IVec S1600000 32) = dstOf (edges m c) :=
  ((W4_of_ne m ρ c main_v3 (by decide)).trans ((by not_written hostOps1 : W3 m ρ c (Proc.devRef .tc main_v3) = W2 m ρ c (Proc.devRef .tc main_v3)).trans (W2_dst m ρ c)))

theorem W4_recip : (W4 m ρ c (Proc.devRef .tc main_v12) : FVec Ideal S100000x1 .f32) = recipCol (dstOf (edges m c)) :=
  ((W4_of_ne m ρ c main_v12 (by decide)).trans ((by not_written hostOps1 : W3 m ρ c (Proc.devRef .tc main_v12) = W2 m ρ c (Proc.devRef .tc main_v12)).trans (W2_recip m ρ c)))

/-- The third launch's mean operand: the mean of what the second launch left. -/
theorem V5_mean : (V5 m ρ c main_v52 : FVec Ideal S100000x128 .f32)
    = mean128 (W4 m ρ c (Proc.devRef .tc main_v40)) (srcOf (edges m c)) (dstOf (edges m c)) (recipCol (dstOf (edges m c))) := by
  rw [← W4_recip m ρ c, ← W4_src m ρ c, ← W4_dst m ρ c]
  show StableHlo.after hostOps2 (W4 m ρ c) (Proc.devRef .tc main_v52) = _
  after_results_simp
  rfl

theorem V5_h : V5 m ρ c main_v40 = W4 m ρ c (Proc.devRef .tc main_v40) := by
  show StableHlo.after hostOps2 (W4 m ρ c) (Proc.devRef .tc main_v40) = _
  not_written hostOps2

theorem V5_bias : (V5 m ρ c main_v53 : FVec Ideal S1x256 .f32)
    = shapeCast S1x256 (m ((c : Thread nD τ).loc main_arg9) : FVec Ideal S256 .f32) shapeCasts_S256_S1x256 := by
  rw [← (((W4_of_ne m ρ c main_arg9 (by decide)).trans ((by not_written hostOps1 : W3 m ρ c (Proc.devRef .tc main_arg9) = W2 m ρ c (Proc.devRef .tc main_arg9)).trans ((W2_of_ne m ρ c main_arg9 (by decide)).trans (by not_written hostOps0 : W1 m ρ c (Proc.devRef .tc main_arg9) = W0 m ρ c (Proc.devRef .tc main_arg9))))) : W4 m ρ c (Proc.devRef .tc main_arg9) = m ((c : Thread nD τ).loc main_arg9))]
  show StableHlo.after hostOps2 (W4 m ρ c) (Proc.devRef .tc main_v53) = _
  after_results_simp
  rfl

theorem V5_arg8 : V5 m ρ c main_arg8 = m ((c : Thread nD τ).loc main_arg8) :=
  ((by not_written hostOps2 : W5 m ρ c (Proc.devRef .tc main_arg8) = W4 m ρ c (Proc.devRef .tc main_arg8)).trans ((W4_of_ne m ρ c main_arg8 (by decide)).trans ((by not_written hostOps1 : W3 m ρ c (Proc.devRef .tc main_arg8) = W2 m ρ c (Proc.devRef .tc main_arg8)).trans ((W2_of_ne m ρ c main_arg8 (by decide)).trans (by not_written hostOps0 : W1 m ρ c (Proc.devRef .tc main_arg8) = W0 m ρ c (Proc.devRef .tc main_arg8))))))

theorem V5_arg10 : V5 m ρ c main_arg10 = m ((c : Thread nD τ).loc main_arg10) :=
  ((by not_written hostOps2 : W5 m ρ c (Proc.devRef .tc main_arg10) = W4 m ρ c (Proc.devRef .tc main_arg10)).trans ((W4_of_ne m ρ c main_arg10 (by decide)).trans ((by not_written hostOps1 : W3 m ρ c (Proc.devRef .tc main_arg10) = W2 m ρ c (Proc.devRef .tc main_arg10)).trans ((W2_of_ne m ρ c main_arg10 (by decide)).trans (by not_written hostOps0 : W1 m ρ c (Proc.devRef .tc main_arg10) = W0 m ρ c (Proc.devRef .tc main_arg10))))))

/-! ### After the third launch -/

theorem V7_h : V7 m ρ c main_v54 = W6 m ρ c (Proc.devRef .tc main_v54) := by
  show StableHlo.after hostOps3 (W6 m ρ c) (Proc.devRef .tc main_v54) = _
  not_written hostOps3

theorem V7_bias : (V7 m ρ c main_v55 : FVec Ideal S1x9 .f32)
    = shapeCast S1x9 (m ((c : Thread nD τ).loc main_arg12) : FVec Ideal S9 .f32) shapeCasts_S9_S1x9 := by
  rw [← (((W6_of_ne m ρ c main_arg12 (by decide)).trans ((by not_written hostOps2 : W5 m ρ c (Proc.devRef .tc main_arg12) = W4 m ρ c (Proc.devRef .tc main_arg12)).trans ((W4_of_ne m ρ c main_arg12 (by decide)).trans ((by not_written hostOps1 : W3 m ρ c (Proc.devRef .tc main_arg12) = W2 m ρ c (Proc.devRef .tc main_arg12)).trans ((W2_of_ne m ρ c main_arg12 (by decide)).trans (by not_written hostOps0 : W1 m ρ c (Proc.devRef .tc main_arg12) = W0 m ρ c (Proc.devRef .tc main_arg12))))))) : W6 m ρ c (Proc.devRef .tc main_arg12) = m ((c : Thread nD τ).loc main_arg12))]
  show StableHlo.after hostOps3 (W6 m ρ c) (Proc.devRef .tc main_v55) = _
  after_results_simp
  rfl

theorem V7_arg11 : V7 m ρ c main_arg11 = m ((c : Thread nD τ).loc main_arg11) :=
  ((by not_written hostOps3 : W7 m ρ c (Proc.devRef .tc main_arg11) = W6 m ρ c (Proc.devRef .tc main_arg11)).trans ((W6_of_ne m ρ c main_arg11 (by decide)).trans ((by not_written hostOps2 : W5 m ρ c (Proc.devRef .tc main_arg11) = W4 m ρ c (Proc.devRef .tc main_arg11)).trans ((W4_of_ne m ρ c main_arg11 (by decide)).trans ((by not_written hostOps1 : W3 m ρ c (Proc.devRef .tc main_arg11) = W2 m ρ c (Proc.devRef .tc main_arg11)).trans ((W2_of_ne m ρ c main_arg11 (by decide)).trans (by not_written hostOps0 : W1 m ρ c (Proc.devRef .tc main_arg11) = W0 m ρ c (Proc.devRef .tc main_arg11))))))))

end Cert.KernelIdeal.HostK

end
-- ==== Proof.LibPlainDot.lean ====
/-
  A plain matrix product read at an index, at the ideal values.

  The dimension numbers `DotDims.plain M K N` contract the second axis of an `M × K` left operand with the first axis of a
  `K × N` right operand. At the ideal instance a `tpu.matmul` with these numbers into the zero accumulator, and the
  host's `dot_general` with the same numbers, are both — at the result index `(p, q)` — the finite sum over `k : Fin K`
  of `lhs (p, k) * rhs (k, q)` on the extended reals. Nothing is assumed of `M`, `K`, `N` or of the operands' formats.

  The proof names the two operand indices coordinate by coordinate (`lhsIdx_plain`, `rhsIdx_plain`: a batch-free,
  single-contraction record sends `(p, q)` and `k` to `(p, k)` and `(k, q)`) and re-indexes the one-axis contraction shape
  by its coordinate.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable (M K N : Nat)

/-- The one-axis contraction shape of a plain product, identified with `Fin K`. -/
abbrev contrFin : (DotDims.plain M K N).contr.Idx ≃ Fin K := contrEquiv1 (DotDims.plain M K N) K rfl rfl

/-- The left operand's index at result index `(p, q)` and contraction coordinate `k` is `(p, k)`. -/
theorem lhsIdx_plain (p : Fin M) (q : Fin N) (k : Fin K) :
    (DotDims.plain M K N).lhsIdx (ix2 p q) ((contrFin M K N).symm k) = ix2 p k := by
  funext a
  apply Fin.ext
  match a with
  | ⟨0, _⟩ =>
    show ((DotDims.plain M K N).lhsIdx (ix2 p q) ((contrFin M K N).symm k) (0 : Fin 2)).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    show ((DotDims.plain M K N).lhsIdx (ix2 p q) ((contrFin M K N).symm k) (1 : Fin 2)).val = k.val
    exact ((DotDims.plain M K N).lhsIdx_val_of_single rfl _ _).trans
      (contrEquiv1_symm_val (DotDims.plain M K N) K rfl rfl k)

/-- The right operand's index at result index `(p, q)` and contraction coordinate `k` is `(k, q)`. -/
theorem rhsIdx_plain (p : Fin M) (q : Fin N) (k : Fin K) :
    (DotDims.plain M K N).rhsIdx (ix2 p q) ((contrFin M K N).symm k) = ix2 k q := by
  funext a
  apply Fin.ext
  match a with
  | ⟨0, _⟩ =>
    show ((DotDims.plain M K N).rhsIdx (ix2 p q) ((contrFin M K N).symm k) (0 : Fin 2)).val = k.val
    exact ((DotDims.plain M K N).rhsIdx_val_of_single rfl _ _).trans
      (contrEquiv1_symm_val (DotDims.plain M K N) K rfl rfl k)
  | ⟨1, _⟩ =>
    show ((DotDims.plain M K N).rhsIdx (ix2 p q) ((contrFin M K N).symm k) (1 : Fin 2)).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)`, over `Fin K`. -/
theorem sum_plain (lhs : (⟨2, ![M, K]⟩ : Shape).Idx → EReal) (rhs : (⟨2, ![K, N]⟩ : Shape).Idx → EReal) (p : Fin M) (q : Fin N) :
    (∑ c : (DotDims.plain M K N).contr.Idx,
        lhs ((DotDims.plain M K N).lhsIdx (ix2 p q) c) * rhs ((DotDims.plain M K N).rhsIdx (ix2 p q) c))
      = ∑ k : Fin K, lhs (ix2 p k) * rhs (ix2 k q) := by
  rw [← Equiv.sum_comp (contrFin M K N).symm]
  exact Finset.sum_congr rfl fun k _ => by rw [lhsIdx_plain, rhsIdx_plain]

/-- A `tpu.matmul` with plain dimension numbers into the zero accumulator, at the ideal values, read at `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (sum_plain M K N lhs rhs p q)

/-- The host's `dot_general` with plain dimension numbers, at the ideal values, read at `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (sum_plain M K N lhs rhs p q)

end Cert.Lib.PlainDot

end
-- ==== Proof.SageSpec.lean ====
/-
  The arithmetic of the network, entry by entry, on the extended reals.

  One layer sends a node-feature matrix `h` (one row per node) and the matrix `mean` of its neighbourhood means to
  `relu (mean · Wl + h · Wr + b)`: entry `(p, q)` is the larger of zero and
  `∑ k, mean (p, k) * Wl (k, q) + ∑ k, h (p, k) * Wr (k, q) + b q`. The closing linear map sends `h` to `h · W + b`.
  Both are functions of ROW `p` of their matrix operands only, so the same formula describes a block of rows and the
  whole matrix.

  Two laws connect the two ways the network is written. Addition of extended reals is commutative and associative, so the
  three summands of a layer may be added in either order (`sageAt_comm`). And the mean of a neighbourhood may be taken by
  dividing the sum by `max deg 1` or by multiplying it with `1 / max deg 1`: the divisor is at least one, hence not zero,
  and off zero the quotient of extended reals IS the product with the inverse (`mul_recip_eq_div`). Neither law needs
  any entry to be finite.
-/
import Idealize.ShloMosaic.Lib.ValueIdx
import Idealize.ShloMosaic.PureOps.Ideal

noncomputable section

open scoped BigOperators

namespace Cert.Sage

open Idealize.ShloMosaic Idealize.ShloMosaic.ValueIdx

/-- An `a × b` matrix of extended reals, indexed as the arrays of the programs are. -/
abbrev Mat (a b : Nat) : Type := (⟨2, ![a, b]⟩ : Shape).Idx → EReal

variable (M K N : Nat)

/-- Entry `(p, q)` of the matrix product `A · W`. -/
def lin (A : Mat M K) (W : Mat K N) (p : Fin M) (q : Fin N) : EReal := ∑ k : Fin K, A (ix2 p k) * W (ix2 k q)

/-- Entry `(p, q)` of one layer, the two products added first and the bias last. -/
def sageAt (mean h : Mat M K) (Wl Wr : Mat K N) (b : Fin N → EReal) (p : Fin M) (q : Fin N) : EReal :=
  max (lin M K N mean Wl p q + lin M K N h Wr p q + b q) 0

/-- Entry `(p, q)` of one layer, the bias added to the first product before the second product. -/
def sageAtBiasFirst (mean h : Mat M K) (Wl Wr : Mat K N) (b : Fin N → EReal) (p : Fin M) (q : Fin N) : EReal :=
  max (lin M K N mean Wl p q + b q + lin M K N h Wr p q) 0

/-- The order of the three summands does not matter. -/
theorem sageAt_comm (mean h : Mat M K) (Wl Wr : Mat K N) (b : Fin N → EReal) (p : Fin M) (q : Fin N) :
    sageAt M K N mean h Wl Wr b p q = sageAtBiasFirst M K N mean h Wl Wr b p q := by
  unfold sageAt sageAtBiasFirst
  rw [add_right_comm]

/-- One layer as a whole matrix. -/
def sageOut (mean h : Mat M K) (Wl Wr : Mat K N) (b : Fin N → EReal) : Mat M N :=
  fun j => sageAt M K N mean h Wl Wr b ⟨(j 0).val, idx2_lt0 j⟩ ⟨(j 1).val, idx2_lt1 j⟩

theorem sageOut_ix2 (mean h : Mat M K) (Wl Wr : Mat K N) (b : Fin N → EReal) (p : Fin M) (q : Fin N) :
    sageOut M K N mean h Wl Wr b (ix2 p q) = sageAt M K N mean h Wl Wr b p q := rfl

/-- The layer's matrix depends on its operands only through their values. -/
theorem sageOut_congr {mean mean' h h' : Mat M K} {Wl Wl' Wr Wr' : Mat K N} {b b' : Fin N → EReal}
    (e1 : mean = mean') (e2 : h = h') (e3 : Wl = Wl') (e4 : Wr = Wr') (e5 : ∀ q, b q = b' q) :
    sageOut M K N mean h Wl Wr b = sageOut M K N mean' h' Wl' Wr' b' := by
  obtain rfl := e1
  obtain rfl := e2
  obtain rfl := e3
  obtain rfl := e4
  obtain rfl : b = b' := funext e5
  rfl

/-- Entry `(p, q)` of the closing linear map. -/
def fcAt (A : Mat M K) (W : Mat K N) (b : Fin N → EReal) (p : Fin M) (q : Fin N) : EReal :=
  lin M K N A W p q + b q

/-- The closing linear map as a whole matrix. -/
def fcOut (A : Mat M K) (W : Mat K N) (b : Fin N → EReal) : Mat M N :=
  fun j => fcAt M K N A W b ⟨(j 0).val, idx2_lt0 j⟩ ⟨(j 1).val, idx2_lt1 j⟩

theorem fcOut_ix2 (A : Mat M K) (W : Mat K N) (b : Fin N → EReal) (p : Fin M) (q : Fin N) :
    fcOut M K N A W b (ix2 p q) = fcAt M K N A W b p q := rfl

/-- The closing map's matrix depends on its operands only through their values. -/
theorem fcOut_congr {A A' : Mat M K} {W W' : Mat K N} {b b' : Fin N → EReal}
    (e1 : A = A') (e2 : W = W') (e3 : ∀ q, b q = b' q) : fcOut M K N A W b = fcOut M K N A' W' b' := by
  obtain rfl := e1
  obtain rfl := e2
  obtain rfl : b = b' := funext e3
  rfl

/-- A product depends on its left operand through one row only. -/
theorem lin_congr {M' : Nat} (A : Mat M K) (A' : Mat M' K) (W : Mat K N) (p : Fin M) (p' : Fin M') (q : Fin N)
    (hA : ∀ k : Fin K, A (ix2 p k) = A' (ix2 p' k)) : lin M K N A W p q = lin M' K N A' W p' q := by
  unfold lin
  exact Finset.sum_congr rfl fun k _ => by rw [hA k]

/-- Multiplying by the reciprocal of `max g 1` is dividing by it: the divisor is not zero. -/
theorem mul_recip_eq_div (s g : EReal) : s * Ideal.div 1 (max g 1) = Ideal.div s (max g 1) := by
  have hd : max g 1 ≠ 0 := ne_of_gt (lt_of_lt_of_le zero_lt_one (le_max_right g 1))
  unfold Ideal.div
  rw [if_neg hd, if_neg hd, one_mul]

end Cert.Sage

end
-- ==== Proof.Pay0.lean ====
/-
  The value one grid point of layer 1 stores, entry by entry.

  The body loads a block of 2000 rows of the neighbourhood means and of the node features, both weight matrices whole and
  the bias as one row; it narrows the four matrices to bfloat16 (the identity on extended reals), multiplies each block by
  its weights into a zero accumulator (a plain `2000 × 64` by `64 × 128` product: entry `(r, q)` is the sum over `k`), adds
  the two products, adds the bias row repeated along the rows, and keeps the larger of the result and zero. At `(r, q)`
  that is `Cert.Sage.sageAt` of row `r` of the two blocks.
-/
import proofs.«162173_j90580860273246_1_alg».proof.Proof.Gen.KernelIdeal.Skeleton
import proofs.«162173_j90580860273246_1_alg».proof.Proof.LibPlainDot
import proofs.«162173_j90580860273246_1_alg».proof.Proof.SageSpec
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Sage Cert.Lib

/-- The printed dimension numbers are those of a plain `2000 × 64` by `64 × 128` product. -/
theorem dims0 : dot_S2000x64_S64x128_S2000x128_1_0_0_1_n_n = DotDims.plain 2000 64 128 := rfl

/-- The body's stored value at row `r`, column `q` of the block. -/
theorem pay0_apply (x0 x1 : FVec Ideal S2000x64 .f32) (x2 x4 : FVec Ideal S64x128 .f32) (x3 : FVec Ideal S1x128 .f32)
    (r : Fin 2000) (q : Fin 128) :
    k0_pay1 (F := Ideal) x0 x1 x2 x4 x3 (ix2 r q)
      = sageAt 2000 64 128 x0 x1 x2 x4 (fun q => x3 (ix2 (0 : Fin 1) q)) r q := by
  unfold k0_pay1
  simp only [shapeCast_self]
  show max ((FloatOps.matmul dot_S2000x64_S64x128_S2000x128_1_0_0_1_n_n none x0 x2 (constant S2000x128 .f32 0x00000000#32) (ix2 r q)
        + FloatOps.matmul dot_S2000x64_S64x128_S2000x128_1_0_0_1_n_n none x1 x4 (constant S2000x128 .f32 0x00000000#32) (ix2 r q))
      + broadcastTo S2000x128 x3 broadcasts_S1x128_S2000x128 (ix2 r q)) (Ideal.ofBits .f32 0x00000000#32) = _
  rw [dims0, PlainDot.matmul_zero_apply, PlainDot.matmul_zero_apply, broadcastTo_1b_ab_apply, Ideal.ofBits_zero_f32]
  rfl

/-- The same entry in terms of the arrays the blocks were cut from: row `r` of the two row blocks is row `P` of their
    arrays, and the weights and the bias are whole. -/
theorem pay0_block (x0 x1 : FVec Ideal S2000x64 .f32) (x2 x4 : FVec Ideal S64x128 .f32) (x3 : FVec Ideal S1x128 .f32)
    (A0 A1 : Mat 100000 64) (Wl Wr : Mat 64 128) (B : (⟨2, ![1, 128]⟩ : Shape).Idx → EReal)
    (P : Fin 100000) (r : Fin 2000) (q : Fin 128)
    (h0 : ∀ k : Fin 64, x0 (ix2 r k) = A0 (ix2 P k)) (h1 : ∀ k : Fin 64, x1 (ix2 r k) = A1 (ix2 P k))
    (h2 : ∀ k : Fin 64, x2 (ix2 k q) = Wl (ix2 k q)) (h4 : ∀ k : Fin 64, x4 (ix2 k q) = Wr (ix2 k q))
    (h3 : x3 (ix2 (0 : Fin 1) q) = B (ix2 (0 : Fin 1) q)) :
    k0_pay1 (F := Ideal) x0 x1 x2 x4 x3 (ix2 r q)
      = sageAt 100000 64 128 A0 A1 Wl Wr (fun q => B (ix2 (0 : Fin 1) q)) P q := by
  rw [pay0_apply]
  have e1 : (∑ k : Fin 64, x0 (ix2 r k) * x2 (ix2 k q)) = ∑ k : Fin 64, A0 (ix2 P k) * Wl (ix2 k q) :=
    Finset.sum_congr rfl fun k _ => by rw [h0 k, h2 k]
  have e2 : (∑ k : Fin 64, x1 (ix2 r k) * x4 (ix2 k q)) = ∑ k : Fin 64, A1 (ix2 P k) * Wr (ix2 k q) :=
    Finset.sum_congr rfl fun k _ => by rw [h1 k, h4 k]
  show max ((∑ k : Fin 64, x0 (ix2 r k) * x2 (ix2 k q)) + (∑ k : Fin 64, x1 (ix2 r k) * x4 (ix2 k q)) + x3 (ix2 (0 : Fin 1) q)) 0
    = max ((∑ k : Fin 64, A0 (ix2 P k) * Wl (ix2 k q)) + (∑ k : Fin 64, A1 (ix2 P k) * Wr (ix2 k q)) + B (ix2 (0 : Fin 1) q)) 0
  rw [e1, e2, h3]

end Cert.KernelIdeal.Body

end
-- ==== Proof.Region0.lean ====
/-
  The array launch 0 leaves: layer 1 of the whole matrices.

  The launch walks fifty grid points. Point `t` reads rows `2000 t … 2000 t + 1999` of its two row operands, the weights and
  the bias row whole, and writes rows `2000 t … 2000 t + 1999` of the output. An entry of the body's stored value depends
  on its own row only, so what point `t` writes is block `t` of one whole-array function `G` of the operands as the launch
  finds them; the fifty blocks cover the output (row `i` is written by point `i / 2000`), so the output ends as `G`.
-/
import proofs.«162173_j90580860273246_1_alg».proof.Proof.Gen.KernelIdeal.Frame
import proofs.«162173_j90580860273246_1_alg».proof.Proof.Pay0

set_option maxRecDepth 16384

noncomputable section

namespace Cert.KernelIdeal.Region0

open Cert.KernelIdeal Cert.KernelIdeal.Gen Idealize.ShloMosaic Idealize.ShloMosaic.TcCoe Idealize.ShloMosaic.ValueIdx
open Cert.Sage Idealize.SL.Sem
open Idealize.ShloMosaic.Pipeline (Dat Cfg Window)

-- the buffers' contents when the launch is entered
variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row windows' block number is the grid point, every other block number is zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 50 :=
  lt_of_lt_of_eq t.isLt (show cfg0.N = 50 from N_0)

/-! ## Where a block's entry sits in its array -/

theorem emb0 (t : Fin cfg0.N) (r : Fin 2000) (k : Fin 64) (hP : t.val * 2000 + r.val < 100000) :
    ((cfg0.win 0).blk t).view.emb (ix2 r k) = ix2 (⟨t.val * 2000 + r.val, hP⟩ : Fin 100000) k := by
  obtain ⟨e00, e01, e10, e11, e20, e21, e30, e31, e40, e41, e50, e51⟩ := idx_facts t
  funext a; apply Fin.ext
  match a with
  | ⟨0, _⟩ => show win0_0.index t (0 : Fin 2) * 2000 + 1 * r.val = t.val * 2000 + r.val; omega
  | ⟨1, _⟩ => show win0_0.index t (1 : Fin 2) * 64 + 1 * k.val = k.val; omega

theorem emb1 (t : Fin cfg0.N) (r : Fin 2000) (k : Fin 64) (hP : t.val * 2000 + r.val < 100000) :
    ((cfg0.win 1).blk t).view.emb (ix2 r k) = ix2 (⟨t.val * 2000 + r.val, hP⟩ : Fin 100000) k := by
  obtain ⟨e00, e01, e10, e11, e20, e21, e30, e31, e40, e41, e50, e51⟩ := idx_facts t
  funext a; apply Fin.ext
  match a with
  | ⟨0, _⟩ => show win0_1.index t (0 : Fin 2) * 2000 + 1 * r.val = t.val * 2000 + r.val; omega
  | ⟨1, _⟩ => show win0_1.index t (1 : Fin 2) * 64 + 1 * k.val = k.val; omega

theorem emb2 (t : Fin cfg0.N) (a : Fin 64) (b : Fin 128) :
    ((cfg0.win 2).blk t).view.emb (ix2 a b) = ix2 a b := by
  obtain ⟨e00, e01, e10, e11, e20, e21, e30, e31, e40, e41, e50, e51⟩ := idx_facts t
  funext d; apply Fin.ext
  match d with
  | ⟨0, _⟩ => show win0_2.index t (0 : Fin 2) * 64 + 1 * a.val = a.val; omega
  | ⟨1, _⟩ => show win0_2.index t (1 : Fin 2) * 128 + 1 * b.val = b.val; omega

theorem emb3 (t : Fin cfg0.N) (a : Fin 1) (b : Fin 128) :
    ((cfg0.win 3).blk t).view.emb (ix2 a b) = ix2 a b := by
  obtain ⟨e00, e01, e10, e11, e20, e21, e30, e31, e40, e41, e50, e51⟩ := idx_facts t
  funext d; apply Fin.ext
  match d with
  | ⟨0, _⟩ => show win0_3.index t (0 : Fin 2) * 1 + 1 * a.val = a.val; omega
  | ⟨1, _⟩ => show win0_3.index t (1 : Fin 2) * 128 + 1 * b.val = b.val; omega

theorem emb4 (t : Fin cfg0.N) (a : Fin 64) (b : Fin 128) :
    ((cfg0.win 4).blk t).view.emb (ix2 a b) = ix2 a b := by
  obtain ⟨e00, e01, e10, e11, e20, e21, e30, e31, e40, e41, e50, e51⟩ := idx_facts t
  funext d; apply Fin.ext
  match d with
  | ⟨0, _⟩ => show win0_4.index t (0 : Fin 2) * 64 + 1 * a.val = a.val; omega
  | ⟨1, _⟩ => show win0_4.index t (1 : Fin 2) * 128 + 1 * b.val = b.val; omega

theorem emb5 (t : Fin cfg0.N) (r : Fin 2000) (k : Fin 128) (hP : t.val * 2000 + r.val < 100000) :
    ((cfg0.win 5).blk t).view.emb (ix2 r k) = ix2 (⟨t.val * 2000 + r.val, hP⟩ : Fin 100000) k := by
  obtain ⟨e00, e01, e10, e11, e20, e21, e30, e31, e40, e41, e50, e51⟩ := idx_facts t
  funext a; apply Fin.ext
  match a with
  | ⟨0, _⟩ => show win0_5.index t (0 : Fin 2) * 2000 + 1 * r.val = t.val * 2000 + r.val; omega
  | ⟨1, _⟩ => show win0_5.index t (1 : Fin 2) * 128 + 1 * k.val = k.val; omega

/-! ## The array the launch leaves -/

/-- What the output array ends holding: every row from the same row of the two row operands. -/
abbrev G (c : Dev nD) : S100000x128.Idx → EReal :=
  sageOut 100000 64 128 (V c main_v24) (V c main_arg0) (V c main_arg2) (V c main_arg4) (fun q => V c main_v25 (ix2 (0 : Fin 1) q))

/-- What grid point `t` writes back is block `t` of `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S2000x64) hz, View.ld_unit_zero (S := S64x128) hz, View.ld_unit_zero (S := S1x128) hz]
  have ht : t.val < 50 := point_lt t
  funext j
  obtain ⟨r, q, rfl⟩ : ∃ (r : Fin 2000) (q : Fin 128), j = ix2 r q := ⟨j 0, j 1, eq_ix2 j⟩
  have hP : t.val * 2000 + r.val < 100000 := by have := r.isLt; omega
  show k0_pay1 (iblk0 V c 0 t) (iblk0 V c 1 t) (iblk0 V c 2 t) (iblk0 V c 4 t) (iblk0 V c 3 t) (ix2 r q) = G V c (((cfg0.win 5).blk t).view.emb (ix2 r q))
  rw [emb5 t r q hP]
  refine (Body.pay0_block (iblk0 V c 0 t) (iblk0 V c 1 t) (iblk0 V c 2 t) (iblk0 V c 4 t) (iblk0 V c 3 t) (V c main_v24) (V c main_arg0) (V c main_arg2) (V c main_arg4) (V c main_v25) ⟨t.val * 2000 + r.val, hP⟩ r q ?_ ?_ ?_ ?_ ?_).trans (sageOut_ix2 ..).symm
  · intro k
    show V c main_v24 (((cfg0.win 0).blk t).view.emb (ix2 r k)) = _
    rw [emb0 t r k hP]
  · intro k
    show V c main_arg0 (((cfg0.win 1).blk t).view.emb (ix2 r k)) = _
    rw [emb1 t r k hP]
  · intro k
    show V c main_arg2 (((cfg0.win 2).blk t).view.emb (ix2 k q)) = _
    rw [emb2 t k q]
  · intro k
    show V c main_arg4 (((cfg0.win 4).blk t).view.emb (ix2 k q)) = _
    rw [emb4 t k q]
  · show V c main_v25 (((cfg0.win 3).blk t).view.emb (ix2 (0 : Fin 1) q)) = _
    rw [emb3 t 0 q]

/-- An index of the output array is in point `t`'s block iff each coordinate is in the block's range on its axis. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v26).slice (win0_5.rect t)).set ↔ _
  rw [View.set_slice_whole, Rect.mem_set_unit]
  exact Iff.rfl

/-- Row `i` of the output is written by grid point `i / 2000`. -/
theorem cover (i : S100000x128.Idx) :
    ∃ t : Fin cfg0.N, (cfg0.win 5).flush t = true ∧ i ∈ ((cfg0.win 5).blk t).view.set := by
  have hi0 : (i 0).val < 100000 := idx2_lt0 i
  have hi1 : (i 1).val < 128 := idx2_lt1 i
  have hN : cfg0.N = 50 := N_0
  have hb : (i 0).val / 2000 < cfg0.N := by rw [hN]; omega
  obtain ⟨e00, e01, e10, e11, e20, e21, e30, e31, e40, e41, e50, e51⟩ := idx_facts ⟨(i 0).val / 2000, hb⟩
  refine ⟨⟨(i 0).val / 2000, hb⟩, flush0_5 _, ?_⟩
  rw [mem_blk]
  intro a
  match a with
  | ⟨0, _⟩ =>
    show win0_5.index ⟨(i 0).val / 2000, hb⟩ (0 : Fin 2) * 2000 ≤ (i 0).val ∧ (i 0).val < win0_5.index ⟨(i 0).val / 2000, hb⟩ (0 : Fin 2) * 2000 + 2000
    rw [e50]
    show (i 0).val / 2000 * 2000 ≤ (i 0).val ∧ (i 0).val < (i 0).val / 2000 * 2000 + 2000
    omega
  | ⟨1, _⟩ =>
    show win0_5.index ⟨(i 0).val / 2000, hb⟩ (1 : Fin 2) * 128 ≤ (i 1).val ∧ (i 1).val < win0_5.index ⟨(i 0).val / 2000, hb⟩ (1 : Fin 2) * 128 + 128
    rw [e51]
    omega

/-- THE ARRAY after the launch. -/
theorem final (c : Dev nD) : (dat0 V c).arrAt 5 cfg0.N = G V c :=
  (dat0 V c).arrAt_eq_of_cover 5 (G V c) (fun t _ => flushed_eq V c t) (cover)

end Cert.KernelIdeal.Region0

end
-- ==== Proof.Pay1.lean ====
/-
  The value one grid point of layer 2 stores, entry by entry.

  The body loads a block of 2000 rows of the neighbourhood means and of the node features, both weight matrices whole and
  the bias as one row; it narrows the four matrices to bfloat16 (the identity on extended reals), multiplies each block by
  its weights into a zero accumulator (a plain `2000 × 128` by `128 × 128` product: entry `(r, q)` is the sum over `k`), adds
  the two products, adds the bias row repeated along the rows, and keeps the larger of the result and zero. At `(r, q)`
  that is `Cert.Sage.sageAt` of row `r` of the two blocks.
-/
import proofs.«162173_j90580860273246_1_alg».proof.Proof.Gen.KernelIdeal.Skeleton
import proofs.«162173_j90580860273246_1_alg».proof.Proof.LibPlainDot
import proofs.«162173_j90580860273246_1_alg».proof.Proof.SageSpec
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Sage Cert.Lib

/-- The printed dimension numbers are those of a plain `2000 × 128` by `128 × 128` product. -/
theorem dims1 : dot_S2000x128_S128x128_S2000x128_1_0_0_1_n_n = DotDims.plain 2000 128 128 := rfl

/-- The body's stored value at row `r`, column `q` of the block. -/
theorem pay1_apply (x0 x1 : FVec Ideal S2000x128 .f32) (x2 x4 : FVec Ideal S128x128 .f32) (x3 : FVec Ideal S1x128 .f32)
    (r : Fin 2000) (q : Fin 128) :
    k1_pay1 (F := Ideal) x0 x1 x2 x4 x3 (ix2 r q)
      = sageAt 2000 128 128 x0 x1 x2 x4 (fun q => x3 (ix2 (0 : Fin 1) q)) r q := by
  unfold k1_pay1
  simp only [shapeCast_self]
  show max ((FloatOps.matmul dot_S2000x128_S128x128_S2000x128_1_0_0_1_n_n none x0 x2 (constant S2000x128 .f32 0x00000000#32) (ix2 r q)
        + FloatOps.matmul dot_S2000x128_S128x128_S2000x128_1_0_0_1_n_n none x1 x4 (constant S2000x128 .f32 0x00000000#32) (ix2 r q))
      + broadcastTo S2000x128 x3 broadcasts_S1x128_S2000x128 (ix2 r q)) (Ideal.ofBits .f32 0x00000000#32) = _
  rw [dims1, PlainDot.matmul_zero_apply, PlainDot.matmul_zero_apply, broadcastTo_1b_ab_apply, Ideal.ofBits_zero_f32]
  rfl

/-- The same entry in terms of the arrays the blocks were cut from: row `r` of the two row blocks is row `P` of their
    arrays, and the weights and the bias are whole. -/
theorem pay1_block (x0 x1 : FVec Ideal S2000x128 .f32) (x2 x4 : FVec Ideal S128x128 .f32) (x3 : FVec Ideal S1x128 .f32)
    (A0 A1 : Mat 100000 128) (Wl Wr : Mat 128 128) (B : (⟨2, ![1, 128]⟩ : Shape).Idx → EReal)
    (P : Fin 100000) (r : Fin 2000) (q : Fin 128)
    (h0 : ∀ k : Fin 128, x0 (ix2 r k) = A0 (ix2 P k)) (h1 : ∀ k : Fin 128, x1 (ix2 r k) = A1 (ix2 P k))
    (h2 : ∀ k : Fin 128, x2 (ix2 k q) = Wl (ix2 k q)) (h4 : ∀ k : Fin 128, x4 (ix2 k q) = Wr (ix2 k q))
    (h3 : x3 (ix2 (0 : Fin 1) q) = B (ix2 (0 : Fin 1) q)) :
    k1_pay1 (F := Ideal) x0 x1 x2 x4 x3 (ix2 r q)
      = sageAt 100000 128 128 A0 A1 Wl Wr (fun q => B (ix2 (0 : Fin 1) q)) P q := by
  rw [pay1_apply]
  have e1 : (∑ k : Fin 128, x0 (ix2 r k) * x2 (ix2 k q)) = ∑ k : Fin 128, A0 (ix2 P k) * Wl (ix2 k q) :=
    Finset.sum_congr rfl fun k _ => by rw [h0 k, h2 k]
  have e2 : (∑ k : Fin 128, x1 (ix2 r k) * x4 (ix2 k q)) = ∑ k : Fin 128, A1 (ix2 P k) * Wr (ix2 k q) :=
    Finset.sum_congr rfl fun k _ => by rw [h1 k, h4 k]
  show max ((∑ k : Fin 128, x0 (ix2 r k) * x2 (ix2 k q)) + (∑ k : Fin 128, x1 (ix2 r k) * x4 (ix2 k q)) + x3 (ix2 (0 : Fin 1) q)) 0
    = max ((∑ k : Fin 128, A0 (ix2 P k) * Wl (ix2 k q)) + (∑ k : Fin 128, A1 (ix2 P k) * Wr (ix2 k q)) + B (ix2 (0 : Fin 1) q)) 0
  rw [e1, e2, h3]

end Cert.KernelIdeal.Body

end
-- ==== Proof.Region1.lean ====
/-
  The array launch 1 leaves: layer 2 of the whole matrices.

  The launch walks fifty grid points. Point `t` reads rows `2000 t … 2000 t + 1999` of its two row operands, the weights and
  the bias row whole, and writes rows `2000 t … 2000 t + 1999` of the output. An entry of the body's stored value depends
  on its own row only, so what point `t` writes is block `t` of one whole-array function `G` of the operands as the launch
  finds them; the fifty blocks cover the output (row `i` is written by point `i / 2000`), so the output ends as `G`.
-/
import proofs.«162173_j90580860273246_1_alg».proof.Proof.Gen.KernelIdeal.Frame
import proofs.«162173_j90580860273246_1_alg».proof.Proof.Pay1

set_option maxRecDepth 16384

noncomputable section

namespace Cert.KernelIdeal.Region1

open Cert.KernelIdeal Cert.KernelIdeal.Gen Idealize.ShloMosaic Idealize.ShloMosaic.TcCoe Idealize.ShloMosaic.ValueIdx
open Cert.Sage Idealize.SL.Sem
open Idealize.ShloMosaic.Pipeline (Dat Cfg Window)

-- the buffers' contents when the launch is entered
variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row windows' block number is the grid point, every other block number is zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem point_lt (t : Fin cfg1.N) : t.val < 50 :=
  lt_of_lt_of_eq t.isLt (show cfg1.N = 50 from N_1)

/-! ## Where a block's entry sits in its array -/

theorem emb0 (t : Fin cfg1.N) (r : Fin 2000) (k : Fin 128) (hP : t.val * 2000 + r.val < 100000) :
    ((cfg1.win 0).blk t).view.emb (ix2 r k) = ix2 (⟨t.val * 2000 + r.val, hP⟩ : Fin 100000) k := by
  obtain ⟨e00, e01, e10, e11, e20, e21, e30, e31, e40, e41, e50, e51⟩ := idx_facts t
  funext a; apply Fin.ext
  match a with
  | ⟨0, _⟩ => show win1_0.index t (0 : Fin 2) * 2000 + 1 * r.val = t.val * 2000 + r.val; omega
  | ⟨1, _⟩ => show win1_0.index t (1 : Fin 2) * 128 + 1 * k.val = k.val; omega

theorem emb1 (t : Fin cfg1.N) (r : Fin 2000) (k : Fin 128) (hP : t.val * 2000 + r.val < 100000) :
    ((cfg1.win 1).blk t).view.emb (ix2 r k) = ix2 (⟨t.val * 2000 + r.val, hP⟩ : Fin 100000) k := by
  obtain ⟨e00, e01, e10, e11, e20, e21, e30, e31, e40, e41, e50, e51⟩ := idx_facts t
  funext a; apply Fin.ext
  match a with
  | ⟨0, _⟩ => show win1_1.index t (0 : Fin 2) * 2000 + 1 * r.val = t.val * 2000 + r.val; omega
  | ⟨1, _⟩ => show win1_1.index t (1 : Fin 2) * 128 + 1 * k.val = k.val; omega

theorem emb2 (t : Fin cfg1.N) (a : Fin 128) (b : Fin 128) :
    ((cfg1.win 2).blk t).view.emb (ix2 a b) = ix2 a b := by
  obtain ⟨e00, e01, e10, e11, e20, e21, e30, e31, e40, e41, e50, e51⟩ := idx_facts t
  funext d; apply Fin.ext
  match d with
  | ⟨0, _⟩ => show win1_2.index t (0 : Fin 2) * 128 + 1 * a.val = a.val; omega
  | ⟨1, _⟩ => show win1_2.index t (1 : Fin 2) * 128 + 1 * b.val = b.val; omega

theorem emb3 (t : Fin cfg1.N) (a : Fin 1) (b : Fin 128) :
    ((cfg1.win 3).blk t).view.emb (ix2 a b) = ix2 a b := by
  obtain ⟨e00, e01, e10, e11, e20, e21, e30, e31, e40, e41, e50, e51⟩ := idx_facts t
  funext d; apply Fin.ext
  match d with
  | ⟨0, _⟩ => show win1_3.index t (0 : Fin 2) * 1 + 1 * a.val = a.val; omega
  | ⟨1, _⟩ => show win1_3.index t (1 : Fin 2) * 128 + 1 * b.val = b.val; omega

theorem emb4 (t : Fin cfg1.N) (a : Fin 128) (b : Fin 128) :
    ((cfg1.win 4).blk t).view.emb (ix2 a b) = ix2 a b := by
  obtain ⟨e00, e01, e10, e11, e20, e21, e30, e31, e40, e41, e50, e51⟩ := idx_facts t
  funext d; apply Fin.ext
  match d with
  | ⟨0, _⟩ => show win1_4.index t (0 : Fin 2) * 128 + 1 * a.val = a.val; omega
  | ⟨1, _⟩ => show win1_4.index t (1 : Fin 2) * 128 + 1 * b.val = b.val; omega

theorem emb5 (t : Fin cfg1.N) (r : Fin 2000) (k : Fin 128) (hP : t.val * 2000 + r.val < 100000) :
    ((cfg1.win 5).blk t).view.emb (ix2 r k) = ix2 (⟨t.val * 2000 + r.val, hP⟩ : Fin 100000) k := by
  obtain ⟨e00, e01, e10, e11, e20, e21, e30, e31, e40, e41, e50, e51⟩ := idx_facts t
  funext a; apply Fin.ext
  match a with
  | ⟨0, _⟩ => show win1_5.index t (0 : Fin 2) * 2000 + 1 * r.val = t.val * 2000 + r.val; omega
  | ⟨1, _⟩ => show win1_5.index t (1 : Fin 2) * 128 + 1 * k.val = k.val; omega

/-! ## The array the launch leaves -/

/-- What the output array ends holding: every row from the same row of the two row operands. -/
abbrev G (c : Dev nD) : S100000x128.Idx → EReal :=
  sageOut 100000 128 128 (V c main_v38) (V c main_v26) (V c main_arg5) (V c main_arg7) (fun q => V c main_v39 (ix2 (0 : Fin 1) q))

/-- What grid point `t` writes back is block `t` of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  have ht : t.val < 50 := point_lt t
  funext j
  obtain ⟨r, q, rfl⟩ : ∃ (r : Fin 2000) (q : Fin 128), j = ix2 r q := ⟨j 0, j 1, eq_ix2 j⟩
  have hP : t.val * 2000 + r.val < 100000 := by have := r.isLt; omega
  show k1_pay1 (iblk1 V c 0 t) (iblk1 V c 1 t) (iblk1 V c 2 t) (iblk1 V c 4 t) (iblk1 V c 3 t) (ix2 r q) = G V c (((cfg1.win 5).blk t).view.emb (ix2 r q))
  rw [emb5 t r q hP]
  refine (Body.pay1_block (iblk1 V c 0 t) (iblk1 V c 1 t) (iblk1 V c 2 t) (iblk1 V c 4 t) (iblk1 V c 3 t) (V c main_v38) (V c main_v26) (V c main_arg5) (V c main_arg7) (V c main_v39) ⟨t.val * 2000 + r.val, hP⟩ r q ?_ ?_ ?_ ?_ ?_).trans (sageOut_ix2 ..).symm
  · intro k
    show V c main_v38 (((cfg1.win 0).blk t).view.emb (ix2 r k)) = _
    rw [emb0 t r k hP]
  · intro k
    show V c main_v26 (((cfg1.win 1).blk t).view.emb (ix2 r k)) = _
    rw [emb1 t r k hP]
  · intro k
    show V c main_arg5 (((cfg1.win 2).blk t).view.emb (ix2 k q)) = _
    rw [emb2 t k q]
  · intro k
    show V c main_arg7 (((cfg1.win 4).blk t).view.emb (ix2 k q)) = _
    rw [emb4 t k q]
  · show V c main_v39 (((cfg1.win 3).blk t).view.emb (ix2 (0 : Fin 1) q)) = _
    rw [emb3 t 0 q]

/-- An index of the output array is in point `t`'s block iff each coordinate is in the block's range on its axis. -/
theorem mem_blk (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v40).slice (win1_5.rect t)).set ↔ _
  rw [View.set_slice_whole, Rect.mem_set_unit]
  exact Iff.rfl

/-- Row `i` of the output is written by grid point `i / 2000`. -/
theorem cover (i : S100000x128.Idx) :
    ∃ t : Fin cfg1.N, (cfg1.win 5).flush t = true ∧ i ∈ ((cfg1.win 5).blk t).view.set := by
  have hi0 : (i 0).val < 100000 := idx2_lt0 i
  have hi1 : (i 1).val < 128 := idx2_lt1 i
  have hN : cfg1.N = 50 := N_1
  have hb : (i 0).val / 2000 < cfg1.N := by rw [hN]; omega
  obtain ⟨e00, e01, e10, e11, e20, e21, e30, e31, e40, e41, e50, e51⟩ := idx_facts ⟨(i 0).val / 2000, hb⟩
  refine ⟨⟨(i 0).val / 2000, hb⟩, flush1_5 _, ?_⟩
  rw [mem_blk]
  intro a
  match a with
  | ⟨0, _⟩ =>
    show win1_5.index ⟨(i 0).val / 2000, hb⟩ (0 : Fin 2) * 2000 ≤ (i 0).val ∧ (i 0).val < win1_5.index ⟨(i 0).val / 2000, hb⟩ (0 : Fin 2) * 2000 + 2000
    rw [e50]
    show (i 0).val / 2000 * 2000 ≤ (i 0).val ∧ (i 0).val < (i 0).val / 2000 * 2000 + 2000
    omega
  | ⟨1, _⟩ =>
    show win1_5.index ⟨(i 0).val / 2000, hb⟩ (1 : Fin 2) * 128 ≤ (i 1).val ∧ (i 1).val < win1_5.index ⟨(i 0).val / 2000, hb⟩ (1 : Fin 2) * 128 + 128
    rw [e51]
    omega

/-- THE ARRAY after the launch. -/
theorem final (c : Dev nD) : (dat1 V c).arrAt 5 cfg1.N = G V c :=
  (dat1 V c).arrAt_eq_of_cover 5 (G V c) (fun t _ => flushed_eq V c t) (cover)

end Cert.KernelIdeal.Region1

end
-- ==== Proof.Pay2.lean ====
/-
  The value one grid point of layer 3 stores, entry by entry.

  The body loads a block of 2000 rows of the neighbourhood means and of the node features, both weight matrices whole and
  the bias as one row; it narrows the four matrices to bfloat16 (the identity on extended reals), multiplies each block by
  its weights into a zero accumulator (a plain `2000 × 128` by `128 × 256` product: entry `(r, q)` is the sum over `k`), adds
  the two products, adds the bias row repeated along the rows, and keeps the larger of the result and zero. At `(r, q)`
  that is `Cert.Sage.sageAt` of row `r` of the two blocks.
-/
import proofs.«162173_j90580860273246_1_alg».proof.Proof.Gen.KernelIdeal.Skeleton
import proofs.«162173_j90580860273246_1_alg».proof.Proof.LibPlainDot
import proofs.«162173_j90580860273246_1_alg».proof.Proof.SageSpec
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Sage Cert.Lib

/-- The printed dimension numbers are those of a plain `2000 × 128` by `128 × 256` product. -/
theorem dims2 : dot_S2000x128_S128x256_S2000x256_1_0_0_1_n_n = DotDims.plain 2000 128 256 := rfl

/-- The body's stored value at row `r`, column `q` of the block. -/
theorem pay2_apply (x0 x1 : FVec Ideal S2000x128 .f32) (x2 x4 : FVec Ideal S128x256 .f32) (x3 : FVec Ideal S1x256 .f32)
    (r : Fin 2000) (q : Fin 256) :
    k2_pay1 (F := Ideal) x0 x1 x2 x4 x3 (ix2 r q)
      = sageAt 2000 128 256 x0 x1 x2 x4 (fun q => x3 (ix2 (0 : Fin 1) q)) r q := by
  unfold k2_pay1
  simp only [shapeCast_self]
  show max ((FloatOps.matmul dot_S2000x128_S128x256_S2000x256_1_0_0_1_n_n none x0 x2 (constant S2000x256 .f32 0x00000000#32) (ix2 r q)
        + FloatOps.matmul dot_S2000x128_S128x256_S2000x256_1_0_0_1_n_n none x1 x4 (constant S2000x256 .f32 0x00000000#32) (ix2 r q))
      + broadcastTo S2000x256 x3 broadcasts_S1x256_S2000x256 (ix2 r q)) (Ideal.ofBits .f32 0x00000000#32) = _
  rw [dims2, PlainDot.matmul_zero_apply, PlainDot.matmul_zero_apply, broadcastTo_1b_ab_apply, Ideal.ofBits_zero_f32]
  rfl

/-- The same entry in terms of the arrays the blocks were cut from: row `r` of the two row blocks is row `P` of their
    arrays, and the weights and the bias are whole. -/
theorem pay2_block (x0 x1 : FVec Ideal S2000x128 .f32) (x2 x4 : FVec Ideal S128x256 .f32) (x3 : FVec Ideal S1x256 .f32)
    (A0 A1 : Mat 100000 128) (Wl Wr : Mat 128 256) (B : (⟨2, ![1, 256]⟩ : Shape).Idx → EReal)
    (P : Fin 100000) (r : Fin 2000) (q : Fin 256)
    (h0 : ∀ k : Fin 128, x0 (ix2 r k) = A0 (ix2 P k)) (h1 : ∀ k : Fin 128, x1 (ix2 r k) = A1 (ix2 P k))
    (h2 : ∀ k : Fin 128, x2 (ix2 k q) = Wl (ix2 k q)) (h4 : ∀ k : Fin 128, x4 (ix2 k q) = Wr (ix2 k q))
    (h3 : x3 (ix2 (0 : Fin 1) q) = B (ix2 (0 : Fin 1) q)) :
    k2_pay1 (F := Ideal) x0 x1 x2 x4 x3 (ix2 r q)
      = sageAt 100000 128 256 A0 A1 Wl Wr (fun q => B (ix2 (0 : Fin 1) q)) P q := by
  rw [pay2_apply]
  have e1 : (∑ k : Fin 128, x0 (ix2 r k) * x2 (ix2 k q)) = ∑ k : Fin 128, A0 (ix2 P k) * Wl (ix2 k q) :=
    Finset.sum_congr rfl fun k _ => by rw [h0 k, h2 k]
  have e2 : (∑ k : Fin 128, x1 (ix2 r k) * x4 (ix2 k q)) = ∑ k : Fin 128, A1 (ix2 P k) * Wr (ix2 k q) :=
    Finset.sum_congr rfl fun k _ => by rw [h1 k, h4 k]
  show max ((∑ k : Fin 128, x0 (ix2 r k) * x2 (ix2 k q)) + (∑ k : Fin 128, x1 (ix2 r k) * x4 (ix2 k q)) + x3 (ix2 (0 : Fin 1) q)) 0
    = max ((∑ k : Fin 128, A0 (ix2 P k) * Wl (ix2 k q)) + (∑ k : Fin 128, A1 (ix2 P k) * Wr (ix2 k q)) + B (ix2 (0 : Fin 1) q)) 0
  rw [e1, e2, h3]

end Cert.KernelIdeal.Body

end
-- ==== Proof.Region2.lean ====
/-
  The array launch 2 leaves: layer 3 of the whole matrices.

  The launch walks fifty grid points. Point `t` reads rows `2000 t … 2000 t + 1999` of its two row operands, the weights and
  the bias row whole, and writes rows `2000 t … 2000 t + 1999` of the output. An entry of the body's stored value depends
  on its own row only, so what point `t` writes is block `t` of one whole-array function `G` of the operands as the launch
  finds them; the fifty blocks cover the output (row `i` is written by point `i / 2000`), so the output ends as `G`.
-/
import proofs.«162173_j90580860273246_1_alg».proof.Proof.Gen.KernelIdeal.Frame
import proofs.«162173_j90580860273246_1_alg».proof.Proof.Pay2

set_option maxRecDepth 16384

noncomputable section

namespace Cert.KernelIdeal.Region2

open Cert.KernelIdeal Cert.KernelIdeal.Gen Idealize.ShloMosaic Idealize.ShloMosaic.TcCoe Idealize.ShloMosaic.ValueIdx
open Cert.Sage Idealize.SL.Sem
open Idealize.ShloMosaic.Pipeline (Dat Cfg Window)

-- the buffers' contents when the launch is entered
variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row windows' block number is the grid point, every other block number is zero. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem point_lt (t : Fin cfg2.N) : t.val < 50 :=
  lt_of_lt_of_eq t.isLt (show cfg2.N = 50 from N_2)

/-! ## Where a block's entry sits in its array -/

theorem emb0 (t : Fin cfg2.N) (r : Fin 2000) (k : Fin 128) (hP : t.val * 2000 + r.val < 100000) :
    ((cfg2.win 0).blk t).view.emb (ix2 r k) = ix2 (⟨t.val * 2000 + r.val, hP⟩ : Fin 100000) k := by
  obtain ⟨e00, e01, e10, e11, e20, e21, e30, e31, e40, e41, e50, e51⟩ := idx_facts t
  funext a; apply Fin.ext
  match a with
  | ⟨0, _⟩ => show win2_0.index t (0 : Fin 2) * 2000 + 1 * r.val = t.val * 2000 + r.val; omega
  | ⟨1, _⟩ => show win2_0.index t (1 : Fin 2) * 128 + 1 * k.val = k.val; omega

theorem emb1 (t : Fin cfg2.N) (r : Fin 2000) (k : Fin 128) (hP : t.val * 2000 + r.val < 100000) :
    ((cfg2.win 1).blk t).view.emb (ix2 r k) = ix2 (⟨t.val * 2000 + r.val, hP⟩ : Fin 100000) k := by
  obtain ⟨e00, e01, e10, e11, e20, e21, e30, e31, e40, e41, e50, e51⟩ := idx_facts t
  funext a; apply Fin.ext
  match a with
  | ⟨0, _⟩ => show win2_1.index t (0 : Fin 2) * 2000 + 1 * r.val = t.val * 2000 + r.val; omega
  | ⟨1, _⟩ => show win2_1.index t (1 : Fin 2) * 128 + 1 * k.val = k.val; omega

theorem emb2 (t : Fin cfg2.N) (a : Fin 128) (b : Fin 256) :
    ((cfg2.win 2).blk t).view.emb (ix2 a b) = ix2 a b := by
  obtain ⟨e00, e01, e10, e11, e20, e21, e30, e31, e40, e41, e50, e51⟩ := idx_facts t
  funext d; apply Fin.ext
  match d with
  | ⟨0, _⟩ => show win2_2.index t (0 : Fin 2) * 128 + 1 * a.val = a.val; omega
  | ⟨1, _⟩ => show win2_2.index t (1 : Fin 2) * 256 + 1 * b.val = b.val; omega

theorem emb3 (t : Fin cfg2.N) (a : Fin 1) (b : Fin 256) :
    ((cfg2.win 3).blk t).view.emb (ix2 a b) = ix2 a b := by
  obtain ⟨e00, e01, e10, e11, e20, e21, e30, e31, e40, e41, e50, e51⟩ := idx_facts t
  funext d; apply Fin.ext
  match d with
  | ⟨0, _⟩ => show win2_3.index t (0 : Fin 2) * 1 + 1 * a.val = a.val; omega
  | ⟨1, _⟩ => show win2_3.index t (1 : Fin 2) * 256 + 1 * b.val = b.val; omega

theorem emb4 (t : Fin cfg2.N) (a : Fin 128) (b : Fin 256) :
    ((cfg2.win 4).blk t).view.emb (ix2 a b) = ix2 a b := by
  obtain ⟨e00, e01, e10, e11, e20, e21, e30, e31, e40, e41, e50, e51⟩ := idx_facts t
  funext d; apply Fin.ext
  match d with
  | ⟨0, _⟩ => show win2_4.index t (0 : Fin 2) * 128 + 1 * a.val = a.val; omega
  | ⟨1, _⟩ => show win2_4.index t (1 : Fin 2) * 256 + 1 * b.val = b.val; omega

theorem emb5 (t : Fin cfg2.N) (r : Fin 2000) (k : Fin 256) (hP : t.val * 2000 + r.val < 100000) :
    ((cfg2.win 5).blk t).view.emb (ix2 r k) = ix2 (⟨t.val * 2000 + r.val, hP⟩ : Fin 100000) k := by
  obtain ⟨e00, e01, e10, e11, e20, e21, e30, e31, e40, e41, e50, e51⟩ := idx_facts t
  funext a; apply Fin.ext
  match a with
  | ⟨0, _⟩ => show win2_5.index t (0 : Fin 2) * 2000 + 1 * r.val = t.val * 2000 + r.val; omega
  | ⟨1, _⟩ => show win2_5.index t (1 : Fin 2) * 256 + 1 * k.val = k.val; omega

/-! ## The array the launch leaves -/

/-- What the output array ends holding: every row from the same row of the two row operands. -/
abbrev G (c : Dev nD) : S100000x256.Idx → EReal :=
  sageOut 100000 128 256 (V c main_v52) (V c main_v40) (V c main_arg8) (V c main_arg10) (fun q => V c main_v53 (ix2 (0 : Fin 1) q))

/-- What grid point `t` writes back is block `t` of `G`. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S2000x128) hz, View.ld_unit_zero (S := S128x256) hz, View.ld_unit_zero (S := S1x256) hz]
  have ht : t.val < 50 := point_lt t
  funext j
  obtain ⟨r, q, rfl⟩ : ∃ (r : Fin 2000) (q : Fin 256), j = ix2 r q := ⟨j 0, j 1, eq_ix2 j⟩
  have hP : t.val * 2000 + r.val < 100000 := by have := r.isLt; omega
  show k2_pay1 (iblk2 V c 0 t) (iblk2 V c 1 t) (iblk2 V c 2 t) (iblk2 V c 4 t) (iblk2 V c 3 t) (ix2 r q) = G V c (((cfg2.win 5).blk t).view.emb (ix2 r q))
  rw [emb5 t r q hP]
  refine (Body.pay2_block (iblk2 V c 0 t) (iblk2 V c 1 t) (iblk2 V c 2 t) (iblk2 V c 4 t) (iblk2 V c 3 t) (V c main_v52) (V c main_v40) (V c main_arg8) (V c main_arg10) (V c main_v53) ⟨t.val * 2000 + r.val, hP⟩ r q ?_ ?_ ?_ ?_ ?_).trans (sageOut_ix2 ..).symm
  · intro k
    show V c main_v52 (((cfg2.win 0).blk t).view.emb (ix2 r k)) = _
    rw [emb0 t r k hP]
  · intro k
    show V c main_v40 (((cfg2.win 1).blk t).view.emb (ix2 r k)) = _
    rw [emb1 t r k hP]
  · intro k
    show V c main_arg8 (((cfg2.win 2).blk t).view.emb (ix2 k q)) = _
    rw [emb2 t k q]
  · intro k
    show V c main_arg10 (((cfg2.win 4).blk t).view.emb (ix2 k q)) = _
    rw [emb4 t k q]
  · show V c main_v53 (((cfg2.win 3).blk t).view.emb (ix2 (0 : Fin 1) q)) = _
    rw [emb3 t 0 q]

/-- An index of the output array is in point `t`'s block iff each coordinate is in the block's range on its axis. -/
theorem mem_blk (t : Fin cfg2.N) (i : S100000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v54).slice (win2_5.rect t)).set ↔ _
  rw [View.set_slice_whole, Rect.mem_set_unit]
  exact Iff.rfl

/-- Row `i` of the output is written by grid point `i / 2000`. -/
theorem cover (i : S100000x256.Idx) :
    ∃ t : Fin cfg2.N, (cfg2.win 5).flush t = true ∧ i ∈ ((cfg2.win 5).blk t).view.set := by
  have hi0 : (i 0).val < 100000 := idx2_lt0 i
  have hi1 : (i 1).val < 256 := idx2_lt1 i
  have hN : cfg2.N = 50 := N_2
  have hb : (i 0).val / 2000 < cfg2.N := by rw [hN]; omega
  obtain ⟨e00, e01, e10, e11, e20, e21, e30, e31, e40, e41, e50, e51⟩ := idx_facts ⟨(i 0).val / 2000, hb⟩
  refine ⟨⟨(i 0).val / 2000, hb⟩, flush2_5 _, ?_⟩
  rw [mem_blk]
  intro a
  match a with
  | ⟨0, _⟩ =>
    show win2_5.index ⟨(i 0).val / 2000, hb⟩ (0 : Fin 2) * 2000 ≤ (i 0).val ∧ (i 0).val < win2_5.index ⟨(i 0).val / 2000, hb⟩ (0 : Fin 2) * 2000 + 2000
    rw [e50]
    show (i 0).val / 2000 * 2000 ≤ (i 0).val ∧ (i 0).val < (i 0).val / 2000 * 2000 + 2000
    omega
  | ⟨1, _⟩ =>
    show win2_5.index ⟨(i 0).val / 2000, hb⟩ (1 : Fin 2) * 256 ≤ (i 1).val ∧ (i 1).val < win2_5.index ⟨(i 0).val / 2000, hb⟩ (1 : Fin 2) * 256 + 256
    rw [e51]
    omega

/-- THE ARRAY after the launch. -/
theorem final (c : Dev nD) : (dat2 V c).arrAt 5 cfg2.N = G V c :=
  (dat2 V c).arrAt_eq_of_cover 5 (G V c) (fun t _ => flushed_eq V c t) (cover)

end Cert.KernelIdeal.Region2

end
-- ==== Proof.Pay3.lean ====
/-
  The value one grid point of the closing linear map stores, entry by entry.

  The body loads a block of 2000 rows of the last layer's features, the weight matrix whole and the bias as one row; it
  narrows the two matrices to bfloat16 (the identity on extended reals), multiplies them into a zero accumulator (a plain
  `2000 × 256` by `256 × 9` product: entry `(r, q)` is the sum over `k`) and adds the bias row repeated along the rows. At
  `(r, q)` that is `Cert.Sage.fcAt` of row `r` of the block.
-/
import proofs.«162173_j90580860273246_1_alg».proof.Proof.Gen.KernelIdeal.Skeleton
import proofs.«162173_j90580860273246_1_alg».proof.Proof.LibPlainDot
import proofs.«162173_j90580860273246_1_alg».proof.Proof.SageSpec
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Sage Cert.Lib

/-- The printed dimension numbers are those of a plain `2000 × 256` by `256 × 9` product. -/
theorem dims3 : dot_S2000x256_S256x9_S2000x9_1_0_0_1_n_n = DotDims.plain 2000 256 9 := rfl

/-- The body's stored value at row `r`, column `q` of the block. -/
theorem pay3_apply (x0 : FVec Ideal S2000x256 .f32) (x1 : FVec Ideal S256x9 .f32) (x2 : FVec Ideal S1x9 .f32)
    (r : Fin 2000) (q : Fin 9) :
    k3_pay1 (F := Ideal) x0 x1 x2 (ix2 r q) = fcAt 2000 256 9 x0 x1 (fun q => x2 (ix2 (0 : Fin 1) q)) r q := by
  unfold k3_pay1
  simp only [shapeCast_self]
  show FloatOps.matmul dot_S2000x256_S256x9_S2000x9_1_0_0_1_n_n none x0 x1 (constant S2000x9 .f32 0x00000000#32) (ix2 r q)
      + broadcastTo S2000x9 x2 broadcasts_S1x9_S2000x9 (ix2 r q) = _
  rw [dims3, PlainDot.matmul_zero_apply, broadcastTo_1b_ab_apply]
  rfl

/-- The same entry in terms of the arrays the blocks were cut from: row `r` of the row block is row `P` of its array,
    and the weights and the bias are whole. -/
theorem pay3_block (x0 : FVec Ideal S2000x256 .f32) (x1 : FVec Ideal S256x9 .f32) (x2 : FVec Ideal S1x9 .f32)
    (A0 : Mat 100000 256) (W : Mat 256 9) (B : (⟨2, ![1, 9]⟩ : Shape).Idx → EReal)
    (P : Fin 100000) (r : Fin 2000) (q : Fin 9)
    (h0 : ∀ k : Fin 256, x0 (ix2 r k) = A0 (ix2 P k)) (h1 : ∀ k : Fin 256, x1 (ix2 k q) = W (ix2 k q))
    (h2 : x2 (ix2 (0 : Fin 1) q) = B (ix2 (0 : Fin 1) q)) :
    k3_pay1 (F := Ideal) x0 x1 x2 (ix2 r q) = fcAt 100000 256 9 A0 W (fun q => B (ix2 (0 : Fin 1) q)) P q := by
  rw [pay3_apply]
  have e1 : (∑ k : Fin 256, x0 (ix2 r k) * x1 (ix2 k q)) = ∑ k : Fin 256, A0 (ix2 P k) * W (ix2 k q) :=
    Finset.sum_congr rfl fun k _ => by rw [h0 k, h1 k]
  show (∑ k : Fin 256, x0 (ix2 r k) * x1 (ix2 k q)) + x2 (ix2 (0 : Fin 1) q)
    = (∑ k : Fin 256, A0 (ix2 P k) * W (ix2 k q)) + B (ix2 (0 : Fin 1) q)
  rw [e1, h2]

end Cert.KernelIdeal.Body

end
-- ==== Proof.Region3.lean ====
/-
  The array launch 3 leaves: the closing linear map of the whole matrices.

  The launch walks fifty grid points. Point `t` reads rows `2000 t … 2000 t + 1999` of its row operand, the weights and
  the bias row whole, and writes rows `2000 t … 2000 t + 1999` of the output. An entry of the body's stored value depends
  on its own row only, so what point `t` writes is block `t` of one whole-array function `G` of the operands as the launch
  finds them; the fifty blocks cover the output (row `i` is written by point `i / 2000`), so the output ends as `G`.
-/
import proofs.«162173_j90580860273246_1_alg».proof.Proof.Gen.KernelIdeal.Frame
import proofs.«162173_j90580860273246_1_alg».proof.Proof.Pay3

set_option maxRecDepth 16384

noncomputable section

namespace Cert.KernelIdeal.Region3

open Cert.KernelIdeal Cert.KernelIdeal.Gen Idealize.ShloMosaic Idealize.ShloMosaic.TcCoe Idealize.ShloMosaic.ValueIdx
open Cert.Sage Idealize.SL.Sem
open Idealize.ShloMosaic.Pipeline (Dat Cfg Window)

-- the buffers' contents when the launch is entered
variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row windows' block number is the grid point, every other block number is zero. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem point_lt (t : Fin cfg3.N) : t.val < 50 :=
  lt_of_lt_of_eq t.isLt (show cfg3.N = 50 from N_3)

/-! ## Where a block's entry sits in its array -/

theorem emb0 (t : Fin cfg3.N) (r : Fin 2000) (k : Fin 256) (hP : t.val * 2000 + r.val < 100000) :
    ((cfg3.win 0).blk t).view.emb (ix2 r k) = ix2 (⟨t.val * 2000 + r.val, hP⟩ : Fin 100000) k := by
  obtain ⟨e00, e01, e10, e11, e20, e21, e30, e31⟩ := idx_facts t
  funext a; apply Fin.ext
  match a with
  | ⟨0, _⟩ => show win3_0.index t (0 : Fin 2) * 2000 + 1 * r.val = t.val * 2000 + r.val; omega
  | ⟨1, _⟩ => show win3_0.index t (1 : Fin 2) * 256 + 1 * k.val = k.val; omega

theorem emb1 (t : Fin cfg3.N) (a : Fin 256) (b : Fin 9) :
    ((cfg3.win 1).blk t).view.emb (ix2 a b) = ix2 a b := by
  obtain ⟨e00, e01, e10, e11, e20, e21, e30, e31⟩ := idx_facts t
  funext d; apply Fin.ext
  match d with
  | ⟨0, _⟩ => show win3_1.index t (0 : Fin 2) * 256 + 1 * a.val = a.val; omega
  | ⟨1, _⟩ => show win3_1.index t (1 : Fin 2) * 9 + 1 * b.val = b.val; omega

theorem emb2 (t : Fin cfg3.N) (a : Fin 1) (b : Fin 9) :
    ((cfg3.win 2).blk t).view.emb (ix2 a b) = ix2 a b := by
  obtain ⟨e00, e01, e10, e11, e20, e21, e30, e31⟩ := idx_facts t
  funext d; apply Fin.ext
  match d with
  | ⟨0, _⟩ => show win3_2.index t (0 : Fin 2) * 1 + 1 * a.val = a.val; omega
  | ⟨1, _⟩ => show win3_2.index t (1 : Fin 2) * 9 + 1 * b.val = b.val; omega

theorem emb3 (t : Fin cfg3.N) (r : Fin 2000) (k : Fin 9) (hP : t.val * 2000 + r.val < 100000) :
    ((cfg3.win 3).blk t).view.emb (ix2 r k) = ix2 (⟨t.val * 2000 + r.val, hP⟩ : Fin 100000) k := by
  obtain ⟨e00, e01, e10, e11, e20, e21, e30, e31⟩ := idx_facts t
  funext a; apply Fin.ext
  match a with
  | ⟨0, _⟩ => show win3_3.index t (0 : Fin 2) * 2000 + 1 * r.val = t.val * 2000 + r.val; omega
  | ⟨1, _⟩ => show win3_3.index t (1 : Fin 2) * 9 + 1 * k.val = k.val; omega

/-! ## The array the launch leaves -/

/-- What the output array ends holding: every row from the same row of the two row operands. -/
abbrev G (c : Dev nD) : S100000x9.Idx → EReal :=
  fcOut 100000 256 9 (V c main_v54) (V c main_arg11) (fun q => V c main_v55 (ix2 (0 : Fin 1) q))

/-- What grid point `t` writes back is block `t` of `G`. -/
theorem flushed_eq (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero hz]
  simp only [View.ld_unit_zero (S := S2000x256) hz, View.ld_unit_zero (S := S256x9) hz, View.ld_unit_zero (S := S1x9) hz]
  have ht : t.val < 50 := point_lt t
  funext j
  obtain ⟨r, q, rfl⟩ : ∃ (r : Fin 2000) (q : Fin 9), j = ix2 r q := ⟨j 0, j 1, eq_ix2 j⟩
  have hP : t.val * 2000 + r.val < 100000 := by have := r.isLt; omega
  show k3_pay1 (iblk3 V c 0 t) (iblk3 V c 1 t) (iblk3 V c 2 t) (ix2 r q) = G V c (((cfg3.win 3).blk t).view.emb (ix2 r q))
  rw [emb3 t r q hP]
  refine (Body.pay3_block (iblk3 V c 0 t) (iblk3 V c 1 t) (iblk3 V c 2 t) (V c main_v54) (V c main_arg11) (V c main_v55) ⟨t.val * 2000 + r.val, hP⟩ r q ?_ ?_ ?_).trans (fcOut_ix2 ..).symm
  · intro k
    show V c main_v54 (((cfg3.win 0).blk t).view.emb (ix2 r k)) = _
    rw [emb0 t r k hP]
  · intro k
    show V c main_arg11 (((cfg3.win 1).blk t).view.emb (ix2 k q)) = _
    rw [emb1 t k q]
  · show V c main_v55 (((cfg3.win 2).blk t).view.emb (ix2 (0 : Fin 1) q)) = _
    rw [emb2 t 0 q]

/-- An index of the output array is in point `t`'s block iff each coordinate is in the block's range on its axis. -/
theorem mem_blk (t : Fin cfg3.N) (i : S100000x9.Idx) :
    i ∈ ((cfg3.win 3).blk t).view.set ↔ ∀ a : Fin 2, win3_3.index t a * S2000x9.size a ≤ (i a).val ∧ (i a).val < win3_3.index t a * S2000x9.size a + S2000x9.size a := by
  show i ∈ ((View.whole main_v56).slice (win3_3.rect t)).set ↔ _
  rw [View.set_slice_whole, Rect.mem_set_unit]
  exact Iff.rfl

/-- Row `i` of the output is written by grid point `i / 2000`. -/
theorem cover (i : S100000x9.Idx) :
    ∃ t : Fin cfg3.N, (cfg3.win 3).flush t = true ∧ i ∈ ((cfg3.win 3).blk t).view.set := by
  have hi0 : (i 0).val < 100000 := idx2_lt0 i
  have hi1 : (i 1).val < 9 := idx2_lt1 i
  have hN : cfg3.N = 50 := N_3
  have hb : (i 0).val / 2000 < cfg3.N := by rw [hN]; omega
  obtain ⟨e00, e01, e10, e11, e20, e21, e30, e31⟩ := idx_facts ⟨(i 0).val / 2000, hb⟩
  refine ⟨⟨(i 0).val / 2000, hb⟩, flush3_3 _, ?_⟩
  rw [mem_blk]
  intro a
  match a with
  | ⟨0, _⟩ =>
    show win3_3.index ⟨(i 0).val / 2000, hb⟩ (0 : Fin 2) * 2000 ≤ (i 0).val ∧ (i 0).val < win3_3.index ⟨(i 0).val / 2000, hb⟩ (0 : Fin 2) * 2000 + 2000
    rw [e30]
    show (i 0).val / 2000 * 2000 ≤ (i 0).val ∧ (i 0).val < (i 0).val / 2000 * 2000 + 2000
    omega
  | ⟨1, _⟩ =>
    show win3_3.index ⟨(i 0).val / 2000, hb⟩ (1 : Fin 2) * 9 ≤ (i 1).val ∧ (i 1).val < win3_3.index ⟨(i 0).val / 2000, hb⟩ (1 : Fin 2) * 9 + 9
    rw [e31]
    omega

/-- THE ARRAY after the launch. -/
theorem final (c : Dev nD) : (dat3 V c).arrAt 3 cfg3.N = G V c :=
  (dat3 V c).arrAt_eq_of_cover 3 (G V c) (fun t _ => flushed_eq V c t) (cover)

end Cert.KernelIdeal.Region3

end
-- ==== Proof.LibColumnLayout.lean ====
/-
  Column forms of two layout operations, read at an index built from coordinates.

  A sum over the last axis taken with the reduced axis kept (a column of row sums) meets two layout operations the
  library reads only in their row forms: the cast of a vector `[a]` to a column `[a, 1]`, and the broadcast of a column
  `[a, 1]` across `b` columns to `[a, b]`. Both read, at `(i, ·)`, the operand's entry of row `i`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- A vector `[a]` cast to a column `[a, 1]` reads, at `(i, u)`, the operand at `i`, whatever the unit coordinate `u`:
    both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.LibBroadcastReads.lean ====
/-
  A host `broadcast_in_dim` read at an index, in the five forms a keepdims reduction or a bias addition meets.

  `broadcast_in_dim` places the operand's axes at chosen axes of the result and repeats it along the others. Read at an
  index built from coordinates:
  • a scalar repeated over any shape reads the scalar (`fill_apply`);
  • a vector `[a]` laid as a column `[a, 1]` reads, at `(p, 0)`, its entry `p` (`asCol_apply`);
  • a column `[a, 1]` repeated along `b` columns reads, at `(p, q)`, the column's entry of row `p` (`repeatCol_apply`);
  • a vector `[b]` laid as a row `[1, b]` reads, at `(0, q)`, its entry `q` (`asRow_apply`);
  • a row `[1, b]` repeated along `a` rows reads, at `(p, q)`, the row's entry `q` (`repeatRow_apply`).
  The axis map is a variable with the one coordinate that matters given as a hypothesis (closed by `rfl` at a printed
  `![0]`, `![1]`, `![0, 1]`), so that a lemma applies to a printed operation whatever type its numerals were elaborated
  at. A column form needs `a ≠ 1`: with one row the broadcast reads the same entry, but by its other rule.
-/
import Idealize.ShloMosaic.Lib.Pipeline.Value
import Idealize.ShloMosaic.Lib.ValueIdx

namespace Cert.Lib.BroadcastReads

open Idealize.ShloMosaic Idealize.ShloMosaic.ValueIdx

variable {α : Type} {a b : Nat}

/-- A scalar repeated over any shape reads the scalar. -/
theorem fill_apply {t : Shape} (dims : Fin (⟨0, ![]⟩ : Shape).rank → Fin t.rank)
    (hb : (⟨0, ![]⟩ : Shape).BroadcastsInDim t dims) (x : (⟨0, ![]⟩ : Shape).Idx → α) (i : t.Idx) :
    broadcastInDim t dims hb x i = x ix0 :=
  broadcastInDim_apply dims hb x i ix0 fun d => d.elim0

/-- A vector laid as a column reads, at `(p, 0)`, the vector's entry `p`. -/
theorem asCol_apply (ha : a ≠ 1) (dims : Fin (⟨1, ![a]⟩ : Shape).rank → Fin (⟨2, ![a, 1]⟩ : Shape).rank)
    (hd0 : (dims 0).val = 0) (hb : (⟨1, ![a]⟩ : Shape).BroadcastsInDim ⟨2, ![a, 1]⟩ dims)
    (v : (⟨1, ![a]⟩ : Shape).Idx → α) (p : Fin a) :
    broadcastInDim ⟨2, ![a, 1]⟩ dims hb v (ix2 p (0 : Fin 1)) = v (ix1 p) := by
  refine broadcastInDim_apply dims hb v (ix2 p (0 : Fin 1)) (ix1 p) fun d => ?_
  match d with
  | ⟨0, _⟩ =>
    show p.val = if a = 1 then 0 else (ix2 p (0 : Fin 1) (dims 0)).val
    rw [if_neg ha]
    have e : dims 0 = (0 : Fin 2) := Fin.ext hd0
    rw [e]

/-- A column repeated along each row reads, at `(p, q)`, the column's entry of row `p`. -/
theorem repeatCol_apply (ha : a ≠ 1) (dims : Fin (⟨2, ![a, 1]⟩ : Shape).rank → Fin (⟨2, ![a, b]⟩ : Shape).rank)
    (hd0 : (dims 0).val = 0) (hb : (⟨2, ![a, 1]⟩ : Shape).BroadcastsInDim ⟨2, ![a, b]⟩ dims)
    (col : (⟨2, ![a, 1]⟩ : Shape).Idx → α) (p : Fin a) (q : Fin b) :
    broadcastInDim ⟨2, ![a, b]⟩ dims hb col (ix2 p q) = col (ix2 p (0 : Fin 1)) := by
  refine broadcastInDim_apply dims hb col (ix2 p q) (ix2 p (0 : Fin 1)) fun d => ?_
  match d with
  | ⟨0, _⟩ =>
    show p.val = if a = 1 then 0 else (ix2 p q (dims 0)).val
    rw [if_neg ha]
    have e : dims 0 = (0 : Fin 2) := Fin.ext hd0
    rw [e]
  | ⟨1, _⟩ =>
    show 0 = if (1 : Nat) = 1 then 0 else (ix2 p q (dims 1)).val
    rw [if_pos rfl]

/-- A vector laid as one row reads, at `(0, q)`, its entry `q`. -/
theorem asRow_apply (dims : Fin (⟨1, ![b]⟩ : Shape).rank → Fin (⟨2, ![1, b]⟩ : Shape).rank) (hd : (dims 0).val = 1)
    (hb : (⟨1, ![b]⟩ : Shape).BroadcastsInDim ⟨2, ![1, b]⟩ dims) (v : (⟨1, ![b]⟩ : Shape).Idx → α) (q : Fin b) :
    broadcastInDim ⟨2, ![1, b]⟩ dims hb v (ix2 (0 : Fin 1) q) = v (ix1 q) := by
  refine broadcastInDim_apply dims hb v (ix2 (0 : Fin 1) q) (ix1 q) fun d => ?_
  match d with
  | ⟨0, _⟩ =>
    show q.val = if b = 1 then 0 else (ix2 (0 : Fin 1) q (dims 0)).val
    have e : dims 0 = (1 : Fin 2) := Fin.ext hd
    rw [e]
    split
    · have := q.isLt; omega
    · rfl

/-- A row repeated along `a` rows reads, at `(p, q)`, the row's entry `q`. -/
theorem repeatRow_apply (dims : Fin (⟨2, ![1, b]⟩ : Shape).rank → Fin (⟨2, ![a, b]⟩ : Shape).rank) (hd : (dims 1).val = 1)
    (hb : (⟨2, ![1, b]⟩ : Shape).BroadcastsInDim ⟨2, ![a, b]⟩ dims) (row : (⟨2, ![1, b]⟩ : Shape).Idx → α) (p : Fin a) (q : Fin b) :
    broadcastInDim ⟨2, ![a, b]⟩ dims hb row (ix2 p q) = row (ix2 (0 : Fin 1) q) := by
  refine broadcastInDim_apply dims hb row (ix2 p q) (ix2 (0 : Fin 1) q) fun d => ?_
  match d with
  | ⟨0, _⟩ =>
    show 0 = if (1 : Nat) = 1 then 0 else (ix2 p q (dims 0)).val
    rw [if_pos rfl]
  | ⟨1, _⟩ =>
    show q.val = if b = 1 then 0 else (ix2 p q (dims 1)).val
    have e : dims 1 = (1 : Fin 2) := Fin.ext hd
    rw [e]
    split
    · have := q.isLt; omega
    · rfl

end Cert.Lib.BroadcastReads
-- ==== Proof.MeanLaw.lean ====
/-
  The neighbourhood mean, written two ways, is one array.

  Let `S` be an `N × D` matrix (the sums over each node's in-neighbours), `g` a vector of length `N` (the in-degrees) and
  `one` the constant vector of ones. One program scales row `p` of `S` by the reciprocal `1 / max (g p) 1`, computed once
  as a vector, re-laid as a column and repeated along the row; the other divides row `p` by `max (g p) 1`, the maxima
  laid as a column and repeated along the row. Entry `(p, q)` of the first is `S (p, q) * (1 / max (g p) 1)` and of the
  second `S (p, q) / max (g p) 1`; they agree because the divisor is at least one (`Cert.Sage.mul_recip_eq_div`).

  The layout operations in between are read at an index: a column repeated along rows reads its row's one entry, a
  vector re-laid (or broadcast) as a column reads the vector's entry.
-/
import Idealize.ShloMosaic.Lib.Pipeline.Value
import Idealize.ShloMosaic.Lib.ValueIdx
import Idealize.ShloMosaic.Lib.IdealHost
import proofs.«162173_j90580860273246_1_alg».proof.Proof.SageSpec
import proofs.«162173_j90580860273246_1_alg».proof.Proof.LibColumnLayout
import proofs.«162173_j90580860273246_1_alg».proof.Proof.LibBroadcastReads

noncomputable section

namespace Cert.Sage

open Idealize.ShloMosaic Idealize.ShloMosaic.ValueIdx Cert.Lib.BroadcastReads

variable {N D : Nat}

/-- THE MEAN: scaling the rows of `S` by the reciprocals of `max g 1` is dividing them by `max g 1`. -/
theorem mean_eq (hN : N ≠ 1) (S : FVec Ideal ⟨2, ![N, D]⟩ .f32) (g one : FVec Ideal ⟨1, ![N]⟩ .f32)
    (hone : ∀ i, one i = 1)
    (dimsR : Fin (⟨2, ![N, 1]⟩ : Shape).rank → Fin (⟨2, ![N, D]⟩ : Shape).rank) (hR0 : (dimsR 0).val = 0)
    (hbR : (⟨2, ![N, 1]⟩ : Shape).BroadcastsInDim ⟨2, ![N, D]⟩ dimsR)
    (dimsR' : Fin (⟨2, ![N, 1]⟩ : Shape).rank → Fin (⟨2, ![N, D]⟩ : Shape).rank) (hR0' : (dimsR' 0).val = 0)
    (hbR' : (⟨2, ![N, 1]⟩ : Shape).BroadcastsInDim ⟨2, ![N, D]⟩ dimsR')
    (dimsC : Fin (⟨1, ![N]⟩ : Shape).rank → Fin (⟨2, ![N, 1]⟩ : Shape).rank) (hC0 : (dimsC 0).val = 0)
    (hbC : (⟨1, ![N]⟩ : Shape).BroadcastsInDim ⟨2, ![N, 1]⟩ dimsC)
    (hc : (⟨1, ![N]⟩ : Shape).ShapeCasts ⟨2, ![N, 1]⟩) :
    mulf S (broadcastInDim ⟨2, ![N, D]⟩ dimsR hbR (shapeCast ⟨2, ![N, 1]⟩ (Host.divf one (maximumf g one)) hc))
      = Host.divf S (broadcastInDim ⟨2, ![N, D]⟩ dimsR' hbR' (broadcastInDim ⟨2, ![N, 1]⟩ dimsC hbC (maximumf g one))) := by
  funext j
  obtain ⟨p, q, rfl⟩ : ∃ (p : Fin N) (q : Fin D), j = ix2 p q := ⟨j 0, j 1, eq_ix2 j⟩
  rw [mulf_apply, repeatCol_apply hN dimsR hR0 hbR, ColumnLayout.shapeCast_a_a1_apply]
  show S (ix2 p q) * Ideal.div (one (ix1 p)) (max (g (ix1 p)) (one (ix1 p)))
    = Ideal.div (S (ix2 p q)) (broadcastInDim ⟨2, ![N, D]⟩ dimsR' hbR' (broadcastInDim ⟨2, ![N, 1]⟩ dimsC hbC (maximumf g one)) (ix2 p q))
  rw [repeatCol_apply hN dimsR' hR0' hbR', asCol_apply hN dimsC hC0 hbC, maximumf_apply, hone]
  exact mul_recip_eq_div _ _

end Cert.Sage

end
-- ==== Proof.Bridge.lean ====
/-
  The two programs take the neighbourhood mean of the same matrix the same way.

  Both gather the source rows and scatter-add them at the destinations with the same dimension numbers, both count the
  in-degrees by scatter-adding ones; the kernel's program then multiplies by the column of reciprocals of `max deg 1`
  and the reference divides by the column of `max deg 1`. `Cert.Sage.mean_eq` joins the two forms; the rest is that the
  two printed programs spell the shared stages with equal records.
-/
import proofs.«162173_j90580860273246_1_alg».proof.Proof.HostK
import proofs.«162173_j90580860273246_1_alg».proof.Proof.Gen.ReferenceIdeal.Read
import proofs.«162173_j90580860273246_1_alg».proof.Proof.MeanLaw

set_option maxRecDepth 16384

noncomputable section

namespace Cert.Bridge

open Idealize.ShloMosaic Idealize.ShloMosaic.ValueIdx Cert.Sage
open Cert.KernelIdeal.HostK Cert.ReferenceIdeal.Read

/-- The vector of ones holds ones. -/
theorem ones_apply (i : Cert.KernelIdeal.S100000.Idx) : ones i = 1 := by
  unfold ones
  rw [Cert.Lib.BroadcastReads.fill_apply, constant_apply, Ideal.ofBits_one_f32]

/-- The mean of the input features: the kernel program's is the reference's. -/
theorem mean_in (x0 : FVec Ideal Cert.ReferenceIdeal.S100000x64 .f32) (x1 : IVec Cert.ReferenceIdeal.S2x1600000 32) :
    mean64 x0 (srcOf x1) (dstOf x1) (recipCol (dstOf x1)) = val_main_v22 (F := Ideal) x0 x1 := by
  unfold mean64 recipCol
  refine (mean_eq (N := 100000) (D := 64) (by decide) (aggr64 x0 (srcOf x1) (dstOf x1)) (deg (dstOf x1)) ones ones_apply
    ![0, 1] rfl Cert.KernelIdeal.Gen.bcast_S100000x1_S100000x64_0_1
    ![0, 1] rfl Cert.ReferenceIdeal.Gen.bcast_S100000x1_S100000x64_0_1
    ![0] rfl Cert.ReferenceIdeal.Gen.bcast_S100000_S100000x1_0
    Cert.KernelIdeal.Gen.shapeCasts_S100000_S100000x1).trans ?_
  rfl

/-- The mean of the first layer's output. -/
theorem mean_h1 (x0 : FVec Ideal Cert.ReferenceIdeal.S100000x64 .f32) (x1 : IVec Cert.ReferenceIdeal.S2x1600000 32) (x2 : FVec Ideal Cert.ReferenceIdeal.S64x128 .f32) (x3 : FVec Ideal Cert.ReferenceIdeal.S128 .f32) (x4 : FVec Ideal Cert.ReferenceIdeal.S64x128 .f32) :
    mean128 (val_main_v29 (F := Ideal) x0 x1 x2 x3 x4) (srcOf x1) (dstOf x1) (recipCol (dstOf x1))
      = val_main_v48 (F := Ideal) x0 x1 x2 x3 x4 := by
  unfold mean128 recipCol
  refine (mean_eq (N := 100000) (D := 128) (by decide) (aggr128 (val_main_v29 (F := Ideal) x0 x1 x2 x3 x4) (srcOf x1) (dstOf x1))
    (deg (dstOf x1)) ones ones_apply
    ![0, 1] rfl Cert.KernelIdeal.Gen.bcast_S100000x1_S100000x128_0_1
    ![0, 1] rfl Cert.ReferenceIdeal.Gen.bcast_S100000x1_S100000x128_0_1
    ![0] rfl Cert.ReferenceIdeal.Gen.bcast_S100000_S100000x1_0
    Cert.KernelIdeal.Gen.shapeCasts_S100000_S100000x1).trans ?_
  rfl

/-- The mean of the second layer's output. -/
theorem mean_h2 (x0 : FVec Ideal Cert.ReferenceIdeal.S100000x64 .f32) (x1 : IVec Cert.ReferenceIdeal.S2x1600000 32) (x2 : FVec Ideal Cert.ReferenceIdeal.S64x128 .f32) (x3 : FVec Ideal Cert.ReferenceIdeal.S128 .f32) (x4 : FVec Ideal Cert.ReferenceIdeal.S64x128 .f32) (x5 : FVec Ideal Cert.ReferenceIdeal.S128x128 .f32) (x6 : FVec Ideal Cert.ReferenceIdeal.S128 .f32) (x7 : FVec Ideal Cert.ReferenceIdeal.S128x128 .f32) :
    mean128 (val_main_v55 (F := Ideal) x0 x1 x2 x3 x4 x5 x6 x7) (srcOf x1) (dstOf x1) (recipCol (dstOf x1))
      = val_main_v74 (F := Ideal) x0 x1 x2 x3 x4 x5 x6 x7 := by
  unfold mean128 recipCol
  refine (mean_eq (N := 100000) (D := 128) (by decide) (aggr128 (val_main_v55 (F := Ideal) x0 x1 x2 x3 x4 x5 x6 x7) (srcOf x1) (dstOf x1))
    (deg (dstOf x1)) ones ones_apply
    ![0, 1] rfl Cert.KernelIdeal.Gen.bcast_S100000x1_S100000x128_0_1
    ![0, 1] rfl Cert.ReferenceIdeal.Gen.bcast_S100000x1_S100000x128_0_1
    ![0] rfl Cert.ReferenceIdeal.Gen.bcast_S100000_S100000x1_0
    Cert.KernelIdeal.Gen.shapeCasts_S100000_S100000x1).trans ?_
  rfl

end Cert.Bridge

end
-- ==== Proof.SageHost.lean ====
/-
  One layer, and the closing linear map, written with whole-matrix host operations.

  The host form of a layer multiplies the `N × K` matrix of means by `Wl`, adds the bias (a vector of length `C` laid as
  one row and repeated along the `N` rows), adds the product of the features with `Wr`, and keeps the larger of the result
  and a matrix of zeros. Read at `(p, q)`: each product is the sum over `k` of row `p` against column `q`, the repeated
  bias is `b q`, the zero matrix is zero — the entry is `Cert.Sage.sageAtBiasFirst`, which is `Cert.Sage.sageAt` with the
  summands in another order. The closing linear map is one product plus the repeated bias.
-/
import Idealize.ShloMosaic.Lib.Pipeline.Value
import Idealize.ShloMosaic.Lib.ValueIdx
import Idealize.ShloMosaic.PureOps.Ideal.Laws
import proofs.«162173_j90580860273246_1_alg».proof.Proof.SageSpec
import proofs.«162173_j90580860273246_1_alg».proof.Proof.LibPlainDot
import proofs.«162173_j90580860273246_1_alg».proof.Proof.LibBroadcastReads

noncomputable section

open scoped BigOperators

namespace Cert.Sage

open Idealize.ShloMosaic Idealize.ShloMosaic.ValueIdx Cert.Lib Cert.Lib.BroadcastReads

variable {N K C : Nat}

/-- ONE LAYER in host form is the layer's matrix. -/
theorem hostLayer_eq (mean h : FVec Ideal ⟨2, ![N, K]⟩ .f32) (Wl Wr : FVec Ideal ⟨2, ![K, C]⟩ .f32) (b : FVec Ideal ⟨1, ![C]⟩ .f32)
    (d1 : Fin (⟨1, ![C]⟩ : Shape).rank → Fin (⟨2, ![1, C]⟩ : Shape).rank) (hd1 : (d1 0).val = 1)
    (hb1 : (⟨1, ![C]⟩ : Shape).BroadcastsInDim ⟨2, ![1, C]⟩ d1)
    (d2 : Fin (⟨2, ![1, C]⟩ : Shape).rank → Fin (⟨2, ![N, C]⟩ : Shape).rank) (hd2 : (d2 1).val = 1)
    (hb2 : (⟨2, ![1, C]⟩ : Shape).BroadcastsInDim ⟨2, ![N, C]⟩ d2)
    (dz : Fin (⟨0, ![]⟩ : Shape).rank → Fin (⟨2, ![N, C]⟩ : Shape).rank)
    (hbz : (⟨0, ![]⟩ : Shape).BroadcastsInDim ⟨2, ![N, C]⟩ dz) :
    maximumf
        (addf
          (addf (FloatOps.dotGeneral (DotDims.plain N K C) none .single mean Wl)
            (broadcastInDim ⟨2, ![N, C]⟩ d2 hb2 (broadcastInDim ⟨2, ![1, C]⟩ d1 hb1 b)))
          (FloatOps.dotGeneral (DotDims.plain N K C) none .single h Wr))
        (broadcastInDim ⟨2, ![N, C]⟩ dz hbz (constant (F := Ideal) ⟨0, ![]⟩ .f32 0x00000000#32))
      = sageOut N K C mean h Wl Wr (fun q => b (ix1 q)) := by
  funext j
  obtain ⟨p, q, rfl⟩ : ∃ (p : Fin N) (q : Fin C), j = ix2 p q := ⟨j 0, j 1, eq_ix2 j⟩
  rw [sageOut_ix2, sageAt_comm, maximumf_apply, addf_apply, addf_apply, PlainDot.dotGeneral_apply, PlainDot.dotGeneral_apply,
    repeatRow_apply d2 hd2 hb2, asRow_apply d1 hd1 hb1, fill_apply, constant_apply, Ideal.ofBits_zero_f32]
  rfl

/-- THE CLOSING LINEAR MAP in host form is its matrix. -/
theorem hostFc_eq (h : FVec Ideal ⟨2, ![N, K]⟩ .f32) (W : FVec Ideal ⟨2, ![K, C]⟩ .f32) (b : FVec Ideal ⟨1, ![C]⟩ .f32)
    (d1 : Fin (⟨1, ![C]⟩ : Shape).rank → Fin (⟨2, ![1, C]⟩ : Shape).rank) (hd1 : (d1 0).val = 1)
    (hb1 : (⟨1, ![C]⟩ : Shape).BroadcastsInDim ⟨2, ![1, C]⟩ d1)
    (d2 : Fin (⟨2, ![1, C]⟩ : Shape).rank → Fin (⟨2, ![N, C]⟩ : Shape).rank) (hd2 : (d2 1).val = 1)
    (hb2 : (⟨2, ![1, C]⟩ : Shape).BroadcastsInDim ⟨2, ![N, C]⟩ d2) :
    addf (FloatOps.dotGeneral (DotDims.plain N K C) none .single h W)
        (broadcastInDim ⟨2, ![N, C]⟩ d2 hb2 (broadcastInDim ⟨2, ![1, C]⟩ d1 hb1 b))
      = fcOut N K C h W (fun q => b (ix1 q)) := by
  funext j
  obtain ⟨p, q, rfl⟩ : ∃ (p : Fin N) (q : Fin C), j = ix2 p q := ⟨j 0, j 1, eq_ix2 j⟩
  rw [fcOut_ix2, addf_apply, PlainDot.dotGeneral_apply, repeatRow_apply d2 hd2 hb2, asRow_apply d1 hd1 hb1]
  rfl

end Cert.Sage

end
-- ==== Proof.RefLayers.lean ====
/-
  The reference program, layer by layer.

  Its result is the closing linear map of the third layer's output; each layer's output is the layer's matrix
  (`Cert.Sage.sageOut`) of the neighbourhood means of the layer below and of that layer itself; the closing map is
  `Cert.Sage.fcOut`. Each equation unfolds the program's stages down to the host form of `Cert.Sage.hostLayer_eq` /
  `hostFc_eq`; the printed dimension numbers of the four products are those of plain matrix products.
-/
import proofs.«162173_j90580860273246_1_alg».proof.Proof.Gen.ReferenceIdeal.Read
import proofs.«162173_j90580860273246_1_alg».proof.Proof.SageHost

set_option maxRecDepth 16384

noncomputable section

namespace Cert.ReferenceIdeal.Layers

open Cert.ReferenceIdeal Cert.ReferenceIdeal.Gen Cert.ReferenceIdeal.Read Idealize.ShloMosaic Idealize.ShloMosaic.ValueIdx Cert.Sage

theorem dimsA : dot_S100000x64_S64x128_S100000x128_1_0_0_1_n_n = DotDims.plain 100000 64 128 := rfl
theorem dimsB : dot_S100000x128_S128x128_S100000x128_1_0_0_1_n_n = DotDims.plain 100000 128 128 := rfl
theorem dimsC : dot_S100000x128_S128x256_S100000x256_1_0_0_1_n_n = DotDims.plain 100000 128 256 := rfl
theorem dimsD : dot_S100000x256_S256x9_S100000x9_1_0_0_1_n_n = DotDims.plain 100000 256 9 := rfl

/-- The first layer's output. -/
theorem layer1 (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (x4 : (⟨S64x128, .f32⟩ : BufTy).Contents (Elt Ideal)) :
    val_main_v29 (F := Ideal) x0 x1 x2 x3 x4
      = sageOut 100000 64 128 (val_main_v22 (F := Ideal) x0 x1) x0 x2 x4 (fun q => x3 (ix1 q)) := by
  refine Eq.trans ?_ (hostLayer_eq (N := 100000) (K := 64) (C := 128) (val_main_v22 (F := Ideal) x0 x1) x0 x2 x4 x3
    ![1] rfl bcast_S128_S1x128_1 ![0, 1] rfl bcast_S1x128_S100000x128_0_1 ![] bcast_S_S100000x128)
  rw [← dimsA]
  rfl

/-- The second layer's output. -/
theorem layer2 (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (x4 : (⟨S64x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v55 (F := Ideal) x0 x1 x2 x3 x4 x5 x6 x7
      = sageOut 100000 128 128 (val_main_v48 (F := Ideal) x0 x1 x2 x3 x4) (val_main_v29 (F := Ideal) x0 x1 x2 x3 x4) x5 x7 (fun q => x6 (ix1 q)) := by
  refine Eq.trans ?_ (hostLayer_eq (N := 100000) (K := 128) (C := 128) (val_main_v48 (F := Ideal) x0 x1 x2 x3 x4)
    (val_main_v29 (F := Ideal) x0 x1 x2 x3 x4) x5 x7 x6
    ![1] rfl bcast_S128_S1x128_1 ![0, 1] rfl bcast_S1x128_S100000x128_0_1 ![] bcast_S_S100000x128)
  rw [← dimsB]
  rfl

/-- The third layer's output. -/
theorem layer3 (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (x4 : (⟨S64x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x256, .f32⟩ : BufTy).Contents (Elt Ideal)) (x9 : (⟨S256, .f32⟩ : BufTy).Contents (Elt Ideal)) (x10 : (⟨S128x256, .f32⟩ : BufTy).Contents (Elt Ideal)) :
    val_main_v81 (F := Ideal) x0 x1 x2 x3 x4 x5 x6 x7 x8 x9 x10
      = sageOut 100000 128 256 (val_main_v74 (F := Ideal) x0 x1 x2 x3 x4 x5 x6 x7) (val_main_v55 (F := Ideal) x0 x1 x2 x3 x4 x5 x6 x7) x8 x10 (fun q => x9 (ix1 q)) := by
  refine Eq.trans ?_ (hostLayer_eq (N := 100000) (K := 128) (C := 256) (val_main_v74 (F := Ideal) x0 x1 x2 x3 x4 x5 x6 x7)
    (val_main_v55 (F := Ideal) x0 x1 x2 x3 x4 x5 x6 x7) x8 x10 x9
    ![1] rfl bcast_S256_S1x256_1 ![0, 1] rfl bcast_S1x256_S100000x256_0_1 ![] bcast_S_S100000x256)
  rw [← dimsC]
  rfl

/-- The program's result. -/
theorem result (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (x4 : (⟨S64x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x256, .f32⟩ : BufTy).Contents (Elt Ideal)) (x9 : (⟨S256, .f32⟩ : BufTy).Contents (Elt Ideal)) (x10 : (⟨S128x256, .f32⟩ : BufTy).Contents (Elt Ideal)) (x11 : (⟨S256x9, .f32⟩ : BufTy).Contents (Elt Ideal)) (x12 : (⟨S9, .f32⟩ : BufTy).Contents (Elt Ideal)) :
    val_main_v85 (F := Ideal) x0 x1 x2 x3 x4 x5 x6 x7 x8 x9 x10 x11 x12
      = fcOut 100000 256 9 (val_main_v81 (F := Ideal) x0 x1 x2 x3 x4 x5 x6 x7 x8 x9 x10) x11 (fun q => x12 (ix1 q)) := by
  refine Eq.trans ?_ (hostFc_eq (N := 100000) (K := 256) (C := 9) (val_main_v81 (F := Ideal) x0 x1 x2 x3 x4 x5 x6 x7 x8 x9 x10) x11 x12
    ![1] rfl bcast_S9_S1x9_1 ![0, 1] rfl bcast_S1x9_S100000x9_0_1)
  rw [← dimsD]
  rfl

end Cert.ReferenceIdeal.Layers

end
-- ==== Proof.Network.lean ====
/-
  The kernel program's result is the reference's function of the argument arrays.

  Layer by layer along the chain of boundary contents: a launch leaves the layer's matrix of its operands
  (`Region*.final`); its operands are the mean of the layer below — which the two programs take the same way
  (`Cert.Bridge`) —, that layer itself, and the weights and the bias as launched (`Cert.KernelIdeal.HostK`); and the
  reference's layer is the same matrix of the same operands (`Cert.ReferenceIdeal.Layers`). So what each launch leaves is
  the reference's stage of the argument arrays, and the last launch leaves the reference's result.
-/
import proofs.«162173_j90580860273246_1_alg».proof.Proof.HostK
import proofs.«162173_j90580860273246_1_alg».proof.Proof.Region0
import proofs.«162173_j90580860273246_1_alg».proof.Proof.Region1
import proofs.«162173_j90580860273246_1_alg».proof.Proof.Region2
import proofs.«162173_j90580860273246_1_alg».proof.Proof.Region3
import proofs.«162173_j90580860273246_1_alg».proof.Proof.Bridge
import proofs.«162173_j90580860273246_1_alg».proof.Proof.RefLayers
import Idealize.ShloMosaic.Lib.ValueLayout

set_option maxRecDepth 16384

noncomputable section

namespace Cert.KernelIdeal.Network

open Cert.KernelIdeal Cert.KernelIdeal.Gen Idealize.ShloMosaic Idealize.ShloMosaic.TcCoe Idealize.ShloMosaic.ValueIdx
open Cert.Sage Idealize.SL.Sem
open Cert.ReferenceIdeal.Read (val_main_v22 val_main_v29 val_main_v48 val_main_v55 val_main_v74 val_main_v81 val_main_v85)

variable (m : (ℓ : Loc nD τ sig) → Buf (Elt Ideal) ℓ) (ρ : Dev nD → PrngReg) (c : Dev nD)

/-- What the first launch leaves: the reference's first layer. -/
theorem layer1 : W2 m ρ c (Proc.devRef .tc main_v26) = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W2_arr m ρ c 5).trans <| (Region0.final (V1 m ρ) c).trans <|
    (sageOut_congr 100000 64 128 ((HostK.V1_mean m ρ c).trans (Cert.Bridge.mean_in _ _)) (HostK.V1_arg0 m ρ c) (HostK.V1_arg2 m ρ c)
      (HostK.V1_arg4 m ρ c)
      (fun q => (congrFun (HostK.V1_bias m ρ c) (ix2 (0 : Fin 1) q)).trans (shapeCast_a_1a_apply _ _ 0 q))).trans
      (Cert.ReferenceIdeal.Layers.layer1 _ _ _ _ _).symm

/-- What the second launch leaves: the reference's second layer. -/
theorem layer2 : W4 m ρ c (Proc.devRef .tc main_v40) = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W4_arr m ρ c 5).trans <| (Region1.final (V3 m ρ) c).trans <|
    (sageOut_congr 100000 128 128
      ((HostK.V3_mean m ρ c).trans ((congrArg (fun h => HostK.mean128 h _ _ _) (layer1 m ρ c)).trans (Cert.Bridge.mean_h1 _ _ _ _ _)))
      ((HostK.V3_h m ρ c).trans (layer1 m ρ c)) (HostK.V3_arg5 m ρ c) (HostK.V3_arg7 m ρ c)
      (fun q => (congrFun (HostK.V3_bias m ρ c) (ix2 (0 : Fin 1) q)).trans (shapeCast_a_1a_apply _ _ 0 q))).trans
      (Cert.ReferenceIdeal.Layers.layer2 _ _ _ _ _ _ _ _).symm

/-- What the third launch leaves: the reference's third layer. -/
theorem layer3 : W6 m ρ c (Proc.devRef .tc main_v54) = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W6_arr m ρ c 5).trans <| (Region2.final (V5 m ρ) c).trans <|
    (sageOut_congr 100000 128 256
      ((HostK.V5_mean m ρ c).trans ((congrArg (fun h => HostK.mean128 h _ _ _) (layer2 m ρ c)).trans (Cert.Bridge.mean_h2 _ _ _ _ _ _ _ _)))
      ((HostK.V5_h m ρ c).trans (layer2 m ρ c)) (HostK.V5_arg8 m ρ c) (HostK.V5_arg10 m ρ c)
      (fun q => (congrFun (HostK.V5_bias m ρ c) (ix2 (0 : Fin 1) q)).trans (shapeCast_a_1a_apply _ _ 0 q))).trans
      (Cert.ReferenceIdeal.Layers.layer3 _ _ _ _ _ _ _ _ _ _ _).symm

/-- THE RESULT: what the last launch leaves is the reference's result term of the argument arrays. -/
theorem result : W8 m ρ c (Proc.devRef .tc main_v56) = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (W8_arr m ρ c 3).trans <| (Region3.final (V7 m ρ) c).trans <|
    (fcOut_congr 100000 256 9 ((HostK.V7_h m ρ c).trans (layer3 m ρ c)) (HostK.V7_arg11 m ρ c)
      (fun q => (congrFun (HostK.V7_bias m ρ c) (ix2 (0 : Fin 1) q)).trans (shapeCast_a_1a_apply _ _ 0 q))).trans
      (Cert.ReferenceIdeal.Layers.result _ _ _ _ _ _ _ _ _ _ _ _ _).symm

end Cert.KernelIdeal.Network

end
-- ==== Proof.lean ====
/-
  Three layers of mean aggregation over a graph of 100000 nodes and 1600000 edges, then a linear map: the kernel program
  against its reference, at the ideal values.

  Both programs compute, layer by layer, `relu (mean · Wl + h · Wr + b)` where `mean` is each node's sum over its
  in-neighbours divided by `max deg 1`, and finish with `h · Wfc + bfc`. They differ in three ways, none of which changes
  an extended real. The kernel program does each layer's products on blocks of 2000 rows, on bfloat16 copies of its
  operands: a change of format is the identity, and an entry of a product depends on one row only, so the fifty blocks are
  the rows of the whole product. It adds the bias after the second product where the reference adds it before:
  addition of extended reals is commutative and associative. And it multiplies the sums by `1 / max deg 1` where the
  reference divides by `max deg 1`: the divisor is at least one, hence not zero, and off zero the quotient is the product
  with the inverse. Nothing here needs an entry to be finite, so the precondition is not used.

  The frames of the two kernel programs are the generated ones; the reference's is its generated run with the result
  dropped. The idealization rewrote nothing, so there is nothing to preserve.
-/
import proofs.«162173_j90580860273246_1_alg».proof.Defs
import proofs.«162173_j90580860273246_1_alg».proof.Proof.Gen.Kernel
import proofs.«162173_j90580860273246_1_alg».proof.Proof.Gen.Kernel.Frame
import proofs.«162173_j90580860273246_1_alg».proof.Proof.Gen.KernelIdeal
import proofs.«162173_j90580860273246_1_alg».proof.Proof.Gen.KernelIdeal.Frame
import proofs.«162173_j90580860273246_1_alg».proof.Proof.Gen.ReferenceIdeal
import proofs.«162173_j90580860273246_1_alg».proof.Proof.Gen.Pre_finite_inputs
import proofs.«162173_j90580860273246_1_alg».proof.Proof.Gen.ReferenceIdeal.Run
import proofs.«162173_j90580860273246_1_alg».proof.Proof.Gen.ReferenceIdeal.Read
import proofs.«162173_j90580860273246_1_alg».proof.Proof.KernelRun
import proofs.«162173_j90580860273246_1_alg».proof.Proof.Network
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's result term of the (agreeing) argument arrays. -/
theorem algebraic : Cert.algebraic_KernelIdeal_ReferenceIdeal := by
  intro m ρ m' ρ' _ hagree
  refine ⟨fun c => Cert.ReferenceIdeal.Read.val_main_v85 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Network.result m ρ c), (h c).2⟩)
      (Cert.KernelIdeal.Chain.run_result m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11, e12⟩ := hagree c
    rw [(h c).1, Cert.ReferenceIdeal.Read.val_main_v85_eq, e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
